-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S4096x4096 : Shape := ⟨2, ![4096, 4096]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x768 .f32) (main_arg1 : FVec F S4096x4096 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x768 : Shape := ⟨2, ![4096, 768]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4x8x128 : Shape := ⟨3, ![4, 8, 128]⟩
abbrev S1024x768 : Shape := ⟨2, ![1024, 768]⟩
abbrev S512x768 : Shape := ⟨2, ![512, 768]⟩
abbrev S1024x1 : Shape := ⟨2, ![1024, 1]⟩
abbrev S1x512 : Shape := ⟨2, ![1, 512]⟩
abbrev S1024x512 : Shape := ⟨2, ![1024, 512]⟩
abbrev S1x8x128 : Shape := ⟨3, ![1, 8, 128]⟩
abbrev S768x512 : Shape := ⟨2, ![768, 512]⟩
abbrev S1024 : Shape := ⟨1, ![1024]⟩
abbrev S1 : Shape := ⟨1, ![1]⟩
abbrev S1x1 : Shape := ⟨2, ![1, 1]⟩
abbrev S1x1x1 : Shape := ⟨3, ![1, 1, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x768, .f32⟩
  | .hbm, ⟨1, _⟩ => ⟨S4096x4096, .f32⟩
  | .hbm, ⟨2, _⟩ => ⟨S4096x768, .bf16⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4x8x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x768, .bf16⟩
  | .local _ .vmem, ⟨1, _⟩ => ⟨S1024x768, .bf16⟩
  | .local _ .vmem, ⟨2, _⟩ => ⟨S512x768, .bf16⟩
  | .local _ .vmem, ⟨3, _⟩ => ⟨S512x768, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  reducesTo_S4096x768_S4096_d1 : S4096x768.ReducesTo [1] S4096
  h_S_ : 0 < S_.numel
  shapeCasts_S4096_S4096x1 : S4096.ShapeCasts S4096x1
  shapeCasts_S4096_S1x4096 : S4096.ShapeCasts S1x4096
  inb_S1x8x128_S1x8x128_0_0_0 : ∀ a, (![0, 0, 0] : Fin 3 → Nat) a + S1x8x128.size a ≤ S1x8x128.size a
  h_S1x8x128 : 0 < S1x8x128.numel
  shapeCasts_S1x8x128_S1x8x128 : S1x8x128.ShapeCasts S1x8x128
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  transposes_S512x768_p1_0_S768x512 : S512x768.Transposes [1, 0] S768x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  iota_S1x8x128_d1_w32 : S1x8x128.Iotas .tc 32 [1]
  iota_S1x8x128_d2_w32 : S1x8x128.Iotas .tc 32 [2]
  shapeCasts_S1x1_S1x1x1 : S1x1.ShapeCasts S1x1x1
  broadcasts_S1x1x1_S1x8x128 : S1x1x1.Broadcasts S1x8x128
  reducesTo_S4x8x128_S_d0_1_2 : S4x8x128.ReducesTo [0, 1, 2] S_
  dot_S1024x768_S768x512_S1024x512_1_0_0_1_n_n_wf : DotDims.WF S1024x768 S768x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .bf16 = 32 ∨ (Rect.block (s := S4096x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S4096x768.size a
  hwx0_1 : ∀ i : grid0.Coords, EltTy.bits .bf16 = 32 ∨ (Rect.block (s := S4096x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S4x8x128.size a
  hwx0_5 : ∀ i : grid0.Coords, EltTy.bits .f32 = 32 ∨ (Rect.block (s := S4x8x128) S1x8x128.size (cc0_transform_5 i) (hinb0_5 i)).WholeWords (EltTy.packing .f32)

variable [Facts₀]

def dot_S1024x768_S768x512_S1024x512_1_0_0_1_n_n : DotDims S1024x768 S768x512 S1024x512 where
  lhsContracting := [1]
  rhsContracting := [0]
  lhsNonContracting := [0]
  rhsNonContracting := [1]
  lhsBatch := []
  rhsBatch := []
  wf := dot_S1024x768_S768x512_S1024x512_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x768 : Shape := ⟨2, ![4096, 768]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x4096, .f32⟩
  | .hbm, ⟨2, _⟩ => ⟨S4096x768, .f32⟩
  | .hbm, ⟨3, _⟩ => ⟨S_, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x768_S4096x768_S4096x4096_1_1_0_0_n_n_wf : DotDims.WF S4096x768 S4096x768 S4096x4096 [1] [1] [0] [0] [] []

variable [Facts₀]

def dot_S4096x768_S4096x768_S4096x4096_1_1_0_0_n_n : DotDims S4096x768 S4096x768 S4096x4096 where
  lhsContracting := [1]
  rhsContracting := [1]
  lhsNonContracting := [0]
  rhsNonContracting := [0]
  lhsBatch := []
  rhsBatch := []
  wf := dot_S4096x768_S4096x768_S4096x4096_1_1_0_0_n_n_wf

class Facts : Prop extends Facts₀ where

variable [Facts]
-- ==== Proof.KernelShared.lean ====
/-
  What the three runs of the loss kernel's body share, at any float instance.
  The grid is 4 x 8: coordinate 0 names a band of 1024 rows, coordinate 1 a strip of 512 columns; point t is
  (t / 8, t % 8). The body zeroes its accumulator at the first strip of a band (t % 8 = 0), adds the tile's
  masked sum of squares into it at every strip, and copies it to the band's output block at the last strip
  (t % 8 = 7). Here: the buffers' contents when the region is entered (after the host lines before it), each
  window's block at a point, the two conditions in closed form, where the output window is idle, and the
  kernel's invariant opened at its accumulator.
-/
import proofs.«151003_j23407571763518_2_alg».proof.Proof.Gen.Kernel.Launch
import proofs.«151003_j23407571763518_2_alg».proof.Proof.Gen.Kernel.Skeleton
import proofs.«151003_j23407571763518_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers around the region -/

/-- Core `c`'s buffers at launch. -/
abbrev W0 (c : Dev nD) : Valuation τ sig (Elt F) := fun b => m (c, b)
/-- After the host lines before the region: the bf16 copy of the embeddings, their squares, the row sums of
    the squares, and the two reshapes of those sums. -/
abbrev W1 (c : Dev nD) : Valuation τ sig (Elt F) := StableHlo.after hostOps0 (W0 m c)
/-- The same read at a TensorCore reference: what the region finds. -/
abbrev V1 (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-! ## The body's two conditions -/

/-- "This is the band's first strip": the condition under which the accumulator is zeroed. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the band's last strip": the condition under which the accumulator is copied out. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Off a band's last strip the body stores nothing into the output block, and the block is not written back. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
theorem live5 : ∀ t : Fin cfg0.N, condLast (grid0.coords t) → cfg0.idle 5 (grid0.coords t) = false := by decide +kernel

/-! ## The memrefs the body is called with -/

abbrev VO5 : View sig .tc .vmem S1x8x128 .f32 := (Memref.whole cc0_stg5_0 : Memref sig .tc .vmem S1x8x128 .f32).view
abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S1x8x128 .f32 := Memref.whole cc0_scratch0
abbrev VS : View sig .tc .vmem S1x8x128 .f32 := accM.view

/-- The kernel's class invariant, with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frm

end
-- ==== Proof.KernelRunFirst.lean ====
/-
  The body's run at a band's FIRST strip: the accumulator, whatever it held, is zeroed, then the tile's masked
  sum is added at its corner entry; the output block is left as found. The pieces the accumulator ends with
  are found by running the body.
-/
import proofs.«151003_j23407571763518_2_alg».proof.Proof.KernelShared

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i)
    (x0 : Vec F S1024x768 .bf16) (x1 : Vec F S512x768 .bf16) (x2 : Vec F S1024x1 .f32) (x3 : Vec F S1x512 .f32) (x4 : Vec F S1024x512 .f32) :
    Σ' (L5 : List (View.Piece (Elt F) S1x8x128 .f32)), { LS : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frm

end
-- ==== Proof.KernelRunMid.lean ====
/-
  The body's run at a strip that is neither a band's first nor its last: the tile's masked sum is added at the
  corner entry of the accumulator the strip before left; the output block is left as found.
-/
import proofs.«151003_j23407571763518_2_alg».proof.Proof.KernelRunFirst

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i)
    (x0 : Vec F S1024x768 .bf16) (x1 : Vec F S512x768 .bf16) (x2 : Vec F S1024x1 .f32) (x3 : Vec F S1x512 .f32) (x4 : Vec F S1024x512 .f32) (xs : Vec F S1x8x128 .f32) :
    Σ' (L5 : List (View.Piece (Elt F) S1x8x128 .f32)), { LS : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frm

end
-- ==== Proof.KernelRunLast.lean ====
/-
  The body's run at a band's LAST strip: the tile's masked sum is added at the corner entry of the accumulator
  the strip before left, and the accumulator is then copied whole into the band's output block.
-/
import proofs.«151003_j23407571763518_2_alg».proof.Proof.KernelRunMid

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i)
    (x0 : Vec F S1024x768 .bf16) (x1 : Vec F S512x768 .bf16) (x2 : Vec F S1024x1 .f32) (x3 : Vec F S1x512 .f32) (x4 : Vec F S1024x512 .f32) (xs : Vec F S1x8x128 .f32) :
    Σ' (L5 : List (View.Piece (Elt F) S1x8x128 .f32)), { LS : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Frm

end
-- ==== Proof.KernelData.lean ====
/-
  What the loss kernel's body leaves at each point, and the proof data of its pipeline.
  `outsAt n` is the pair (output block, accumulator) after the body at point n: at a band's first strip the
  accumulator is what the first-strip run leaves of the point's blocks alone; at any other strip what the run
  leaves over the accumulator of the point before; the output block is named only at a band's last strip,
  where the body copies the accumulator into it (elsewhere the window is idle and nothing reads it).
  The invariant carries the accumulator at `outsAt`'s second component from point to point. The embeddings'
  bf16 copy is read through two windows (row band and column strip): each holds half of that array.
-/
import proofs.«151003_j23407571763518_2_alg».proof.Proof.KernelRunLast

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each case's run leaves -/

theorem coverFirst (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i) (x0 : Vec F S1024x768 .bf16) (x1 : Vec F S512x768 .bf16) (x2 : Vec F S1024x1 .f32) (x3 : Vec F S1x512 .f32) (x4 : Vec F S1024x512 .f32) (y : S1x8x128.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1x8x128.size (by sl_kernel_rfl) y
/-- The accumulator after a band's first strip. -/
def accFirst (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i) (x0 : Vec F S1024x768 .bf16) (x1 : Vec F S512x768 .bf16) (x2 : Vec F S1024x1 .f32) (x3 : Vec F S1x512 .f32) (x4 : Vec F S1024x512 .f32) : Vec F S1x8x128 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

theorem coverMid (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i) (x0 : Vec F S1024x768 .bf16) (x1 : Vec F S512x768 .bf16) (x2 : Vec F S1024x1 .f32) (x3 : Vec F S1x512 .f32) (x4 : Vec F S1024x512 .f32) (xs : Vec F S1x8x128 .f32) (y : S1x8x128.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1x8x128.size (by sl_kernel_rfl) y
/-- The accumulator after a middle strip, over what the strip before left (`xs`). -/
def accMid (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

theorem coverLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) (y : S1x8x128.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1x8x128.size (by sl_kernel_rfl) y
/-- The accumulator after a band's last strip. -/
def accLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)
theorem coverOut (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) (y : S1x8x128.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1x8x128.size (by sl_kernel_rfl) y
/-- The band's output block after its last strip. -/
def outLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  VO5.read (Elt F) (VO5.writes (Elt F) VO5.junk (runLast c i arg2 harg2 arg3 harg3 arg4 harg4 arg5 harg5 arg6 harg6 arg7 harg7 arg8 harg8 hc0 hc1 x0 x1 x2 x3 x4 xs).1)

/-- The output block where the body stores nothing into it: contents nothing reads. -/
def idleOut : Vec F S1x8x128 .f32 := VO5.read (Elt F) VO5.junk

/-! ## The accumulation -/

abbrev firstAt (c : Dev nD) (t : Fin cfg0.N) (h0 : t.val % 8 = 0) (h1 : ¬t.val % 8 = 7) : Vec F S1x8x128 .f32 :=
  accFirst c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t) (iblk m c 4 t)
abbrev midAt (c : Dev nD) (t : Fin cfg0.N) (h0 : ¬t.val % 8 = 0) (h1 : ¬t.val % 8 = 7) (xs : Vec F S1x8x128 .f32) : Vec F S1x8x128 .f32 :=
  accMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (iblk m c 4 t) xs
abbrev lastAt (c : Dev nD) (t : Fin cfg0.N) (h0 : ¬t.val % 8 = 0) (h1 : t.val % 8 = 7) (xs : Vec F S1x8x128 .f32) : Vec F S1x8x128 .f32 :=
  accLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (iblk m c 4 t) xs
abbrev outAt (c : Dev nD) (t : Fin cfg0.N) (h0 : ¬t.val % 8 = 0) (h1 : t.val % 8 = 7) (xs : Vec F S1x8x128 .f32) : Vec F S1x8x128 .f32 :=
  outLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (iblk m c 4 t) xs

/-- (output block, accumulator) after the body at point `n`. -/
def outsAt (c : Dev nD) : (n : ℕ) → n < cfg0.N → Vec F S1x8x128 .f32 × Vec F S1x8x128 .f32
  | 0, hn => (idleOut, firstAt m c ⟨0, hn⟩ (Nat.zero_mod _) (show ¬(0 : ℕ) % 8 = 7 by decide))
  | n + 1, hn =>
    if h0 : (n + 1) % 8 = 0 then
      if h1 : (n + 1) % 8 = 7 then False.elim (by omega)
      else (idleOut, firstAt m c ⟨n + 1, hn⟩ h0 h1)
    else
      if h1 : (n + 1) % 8 = 7 then
        (outAt m c ⟨n + 1, hn⟩ h0 h1 (outsAt c n (Nat.lt_of_succ_lt hn)).2, lastAt m c ⟨n + 1, hn⟩ h0 h1 (outsAt c n (Nat.lt_of_succ_lt hn)).2)
      else (idleOut, midAt m c ⟨n + 1, hn⟩ h0 h1 (outsAt c n (Nat.lt_of_succ_lt hn)).2)

theorem outsAt_first (c : Dev nD) (t : Fin cfg0.N) (h0 : t.val % 8 = 0) (h1 : ¬t.val % 8 = 7) :
    outsAt m c t.val t.isLt = (idleOut, firstAt m c t h0 h1) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (idleOut, midAt m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outAt m c t h0 h1 (outsAt m c (t.val - 1) (Nat.lt_of_le_of_lt (Nat.sub_le _ _) t.isLt)).2, lastAt m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the region finds them; after the body each input's buffer at its block, the output's at
    `outsAt`; the two windows on the bf16 embeddings at the two halves of that array, every other at the whole. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat m c).A w = V1 m c (Pipeline.arrRef spec0 w) := by
  dsimp only [dat]
theorem PhiS_castSucc (c : Dev nD) (t : Fin cfg0.N) :
    (dat m c).Φ t.castSucc = PhiS m c t.val (Nat.le_of_lt t.isLt) := by
  dsimp only [dat]; simp only [Fin.coe_castSucc]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = (outsAt m c t.val t.isLt).1 := by dsimp only [dat]

/-- Each input's current staging buffer holds its block at every point, fetched there or not. -/
theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.Kernel.Frm

end
-- ==== Proof.KernelBody.lean ====
/-
  The body obligation of the loss kernel's pipeline: at every point, from the invariant before the point and
  every window's staging buffer as the pipeline hands it over (each input at its block), the body runs and
  hands back the invariant after the point and every buffer as the proof data say. By cases on the point's
  strip: the first of its band (the accumulator may hold anything; at the very first point nothing named),
  a middle one, or the last (the accumulator also copied to the output block).
-/
import proofs.«151003_j23407571763518_2_alg».proof.Proof.KernelData

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d)))

def bodyPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t
    ∗ (dat m c).leavesExact 3 t ∗ (dat m c).leavesExact 4 t ∗ (dat m c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dat m c).owesAt () t.succ = (dat m c).owesAt () t.castSucc from rfl]
  rw [show (dat m c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [show (dat m c).leavesExact 0 t = owns (c : Thread nD τ) (ms0 t) fullShare ((dat m c).after 0 t) from by
      unfold Dat.leavesExact; rw [live0 t], after0]
    rw [show (dat m c).leavesExact 1 t = owns (c : Thread nD τ) (ms1 t) fullShare ((dat m c).after 1 t) from by
      unfold Dat.leavesExact; rw [live1 t], after1]
    rw [show (dat m c).leavesExact 2 t = owns (c : Thread nD τ) (ms2 t) fullShare ((dat m c).after 2 t) from by
      unfold Dat.leavesExact; rw [live2 t], after2]
    rw [show (dat m c).leavesExact 3 t = owns (c : Thread nD τ) (ms3 t) fullShare ((dat m c).after 3 t) from by
      unfold Dat.leavesExact; rw [live3 t], after3]
    rw [show (dat m c).leavesExact 4 t = owns (c : Thread nD τ) (ms4 t) fullShare ((dat m c).after 4 t) from by
      unfold Dat.leavesExact; rw [live4 t], after4]
    rw [Dat.leavesExact_idle (dat m c) 5 t (idle5 t (fun h => h1 ((hcondLast t).mp h))) (noFlush5 t (fun h => h1 ((hcondLast t).mp h)))]
    rw [outsAt_first m c t h0 h1]
    unfold firstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · skip
      rw [show (dat m c).leavesExact 0 t = owns (c : Thread nD τ) (ms0 t) fullShare ((dat m c).after 0 t) from by
        unfold Dat.leavesExact; rw [live0 t], after0]
      rw [show (dat m c).leavesExact 1 t = owns (c : Thread nD τ) (ms1 t) fullShare ((dat m c).after 1 t) from by
        unfold Dat.leavesExact; rw [live1 t], after1]
      rw [show (dat m c).leavesExact 2 t = owns (c : Thread nD τ) (ms2 t) fullShare ((dat m c).after 2 t) from by
        unfold Dat.leavesExact; rw [live2 t], after2]
      rw [show (dat m c).leavesExact 3 t = owns (c : Thread nD τ) (ms3 t) fullShare ((dat m c).after 3 t) from by
        unfold Dat.leavesExact; rw [live3 t], after3]
      rw [show (dat m c).leavesExact 4 t = owns (c : Thread nD τ) (ms4 t) fullShare ((dat m c).after 4 t) from by
        unfold Dat.leavesExact; rw [live4 t], after4]
      rw [show (dat m c).leavesExact 5 t = owns (c : Thread nD τ) (ms5 t) fullShare ((dat m c).after 5 t) from by
        unfold Dat.leavesExact; rw [live5 t ((hcondLast t).mpr h1)], after5]
      rw [outsAt_last m c t h0 h1]
      unfold outAt lastAt outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((hcondFirst t).mp h)) ((hcondLast t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOut c _ _ _ _ _ _ _ _ _ _ _ _ _ _ _ _ _ _ _ _ _ _ _)
    · skip
      rw [show (dat m c).leavesExact 0 t = owns (c : Thread nD τ) (ms0 t) fullShare ((dat m c).after 0 t) from by
        unfold Dat.leavesExact; rw [live0 t], after0]
      rw [show (dat m c).leavesExact 1 t = owns (c : Thread nD τ) (ms1 t) fullShare ((dat m c).after 1 t) from by
        unfold Dat.leavesExact; rw [live1 t], after1]
      rw [show (dat m c).leavesExact 2 t = owns (c : Thread nD τ) (ms2 t) fullShare ((dat m c).after 2 t) from by
        unfold Dat.leavesExact; rw [live2 t], after2]
      rw [show (dat m c).leavesExact 3 t = owns (c : Thread nD τ) (ms3 t) fullShare ((dat m c).after 3 t) from by
        unfold Dat.leavesExact; rw [live3 t], after3]
      rw [show (dat m c).leavesExact 4 t = owns (c : Thread nD τ) (ms4 t) fullShare ((dat m c).after 4 t) from by
        unfold Dat.leavesExact; rw [live4 t], after4]
      rw [Dat.leavesExact_idle (dat m c) 5 t (idle5 t (fun h => h1 ((hcondLast t).mp h))) (noFlush5 t (fun h => h1 ((hcondLast t).mp h)))]
      rw [outsAt_mid m c t h0 h1]
      unfold midAt accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((hcondFirst t).mp h)) (fun h => h1 ((hcondLast t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

end Cert.Kernel.Frm

end
-- ==== Proof.KernelRun.lean ====
/-
  @main of the loss program as three segments — the host lines before the kernel, the kernel's region, the
  host lines after it — run from the launch to the return.
  The one thing particular to this program: the bf16 copy of the embeddings is handed to the kernel TWICE, as
  the row-band window and as the column-strip window. At the region's entry that array's ownership is split in
  two halves, one per window (both only read it); at the exit the halves, still at the same contents, are put
  together again. Every other array goes in and comes out whole; the output array comes out at what the
  write-backs left in it. The run's post names every unscoped buffer's final contents.
-/
import proofs.«151003_j23407571763518_2_alg».proof.Proof.KernelBody

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The windows' arrays, one by one -/

/-- The pipeline's arrays as a chain: the bf16 embeddings twice, at the two halves. -/
theorem arrays_chain (c : Dev nD) (G : (w : Fin cfg0.W) → Buf (Elt F) ((cfg0.win w).arr.view.loc (c : Thread nD τ))) :
    ((dat m c).arrays G : sProp 𝕄) = iprop(
      (((c : Thread nD τ).loc main_v0) ↦{fullShare.left} G 0) ∗ (((c : Thread nD τ).loc main_v0) ↦{fullShare.right} G 1)
      ∗ (((c : Thread nD τ).loc main_v3) ↦{fullShare} G 2) ∗ (((c : Thread nD τ).loc main_v4) ↦{fullShare} G 3)
      ∗ (((c : Thread nD τ).loc main_arg1) ↦{fullShare} G 4) ∗ (((c : Thread nD τ).loc main_v5) ↦{fullShare} G 5)) := by
  have h : ((dat m c).arrays G : sProp 𝕄) = bigSep Finset.univ fun w : Fin 6 =>
      ((((c : Thread nD τ).loc (Pipeline.arrRef spec0 w)) ↦{(dat m c).share w} G w : sProp 𝕄)) := by
    unfold Dat.arrays
    exact bigSep_congr fun w _ => by rw [(arr_whole0 w).set_eq_univ]
  rw [h, bigSep_W0]
  rfl

/-- The distinct buffers behind the arrays, as a chain. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄) = iprop(
      (((c : Thread nD τ).loc main_v0) ↦{fullShare} V main_v0) ∗ (((c : Thread nD τ).loc main_v3) ↦{fullShare} V main_v3)
      ∗ (((c : Thread nD τ).loc main_v4) ↦{fullShare} V main_v4) ∗ (((c : Thread nD τ).loc main_arg1) ↦{fullShare} V main_arg1)
      ∗ (((c : Thread nD τ).loc main_v5) ↦{fullShare} V main_v5)) := by
  unfold Pipeline.arrBufs
  rw [bigSep_eq_bigSepL_of_eq [main_v0, main_v3, main_v4, main_arg1, main_v5] (by decide) (by decide)]
  rfl

/-- ENTRY: the buffers behind the arrays, whole, make the pipeline's arrays — the bf16 embeddings split in halves. -/
theorem arrays_in (c : Dev nD) (V : (b : Ref sig .tc) → Buf (Elt F) ((c : Thread nD τ).loc b))
    (G : (w : Fin cfg0.W) → Buf (Elt F) ((cfg0.win w).arr.view.loc (c : Thread nD τ)))
    (h0 : G 0 = V main_v0) (h1 : G 1 = V main_v0) (h2 : G 2 = V main_v3) (h3 : G 3 = V main_v4) (h4 : G 4 = V main_arg1) (h5 : G 5 = V main_v5) :
    (Pipeline.arrBufs (Ix := Unit) (Name := ℕ) (U := UR sig nD τ) (Lvl := ℕ) spec0 c V : sProp 𝕄) ⊢ (dat m c).arrays G := by
  rw [arrays_chain, arrBufs_chain, h0, h1, h2, h3, h4, h5]
  iintro ⟨H0, H3, H4, HA, H5⟩
  ihave H0' := (pointsTo_share (PosShare.mem_left_op_right fullShare)).1 $$ H0
  icases H0' with ⟨Hl, Hr⟩
  isplitl [Hl]; · iexact Hl
  isplitl [Hr]; · iexact Hr
  isplitl [H3]; · iexact H3
  isplitl [H4]; · iexact H4
  isplitl [HA]; · iexact HA
  iexact H5

/-- EXIT: the pipeline's arrays make the buffers behind them, whole — the two halves of the bf16 embeddings, at one
    contents, joined. -/
theorem arrays_out (c : Dev nD) (V : (b : Ref sig .tc) → Buf (Elt F) ((c : Thread nD τ).loc b))
    (G : (w : Fin cfg0.W) → Buf (Elt F) ((cfg0.win w).arr.view.loc (c : Thread nD τ)))
    (h0 : G 0 = V main_v0) (h1 : G 1 = V main_v0) (h2 : G 2 = V main_v3) (h3 : G 3 = V main_v4) (h4 : G 4 = V main_arg1) (h5 : G 5 = V main_v5) :
    ((dat m c).arrays G : sProp 𝕄) ⊢ Pipeline.arrBufs (Ix := Unit) (Name := ℕ) (U := UR sig nD τ) (Lvl := ℕ) spec0 c V := by
  rw [arrays_chain, arrBufs_chain, h0, h1, h2, h3, h4, h5]
  iintro ⟨Hl, Hr, H3, H4, HA, H5⟩
  isplitl [Hl Hr]
  · iapply (pointsTo_share (PosShare.mem_left_op_right fullShare)).2
    isplitl [Hl]; · iexact Hl
    iexact Hr
  isplitl [H3]; · iexact H3
  isplitl [H4]; · iexact H4
  isplitl [HA]; · iexact HA
  iexact H5

/-! ## The buffers' contents at the segments' boundaries -/

/-- At the region's exit: the output array at what the write-backs left, everything else as entered. -/
def W2 (c : Dev nD) : Valuation τ sig (Elt F) :=
  Function.update (W1 m c) (Proc.devRef .tc main_v5) ((dat m c).arrAt 5 cfg0.N)
abbrev V2 (c : Dev nD) (b : Ref sig .tc) : Buf (Elt F) ((c : Thread nD τ).loc b) := W2 m c (Proc.devRef .tc b)
theorem W2_out (c : Dev nD) : W2 m c (Proc.devRef .tc main_v5) = (dat m c).arrAt 5 cfg0.N := by
  unfold W2; exact Function.update_self ..
theorem W2_of_ne (c : Dev nD) (b : Ref sig .tc) (h : b ≠ main_v5) : W2 m c (Proc.devRef .tc b) = W1 m c (Proc.devRef .tc b) := by
  unfold W2; exact Function.update_of_ne (StableHlo.devRef_ne_of_ne h) ..
/-- After the host lines that follow the region: the sum over the output array and its quotient. -/
abbrev W3 (c : Dev nD) : Valuation τ sig (Elt F) := StableHlo.after hostOps1 (W2 m c)

/-! ## The segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- An input window's array is never written: after every point it holds what the region found. -/
theorem arrAt_in (c : Dev nD) (w : Fin cfg0.W) (hw : (cfg0.win w).isOut = false) (n : ℕ) :
    (dat m c).arrAt w n = V1 m c (Pipeline.arrRef spec0 w) :=
  ((dat m c).arrAt_in w hw n).trans (A_eq m c w)

set_option backward.isDefEq.respectTransparency.types false in
/-- The kernel's region over the thread state "every unscoped buffer at a valuation": entered at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((dat m c).arrays ((dat m c).arrAt · 0) ∗ Pipeline.unscopedRest spec0 c (V1 m c)) := by
      rw [Pipeline.unscopedBufs_split₀ cfgs (0 : Fin 1) (by decide) c (V1 m c)]
      exact sep_mono (arrays_in m c (V1 m c) _ rfl rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin m c)
    unfold Pipeline.ΦA
    iintro ⟨Hp, -, Hr⟩
    isplitl [Hr]; · iexact Hr
    iexact Hp
  hout c := by
    rw [Pipeline.ownSems0_none]
    refine (hout m c).trans ?_
    unfold Pipeline.ΦA
    iintro ⟨Hr, Hp⟩
    isplitl [Hp]; · iexact Hp
    isplitr; · iempintro
    iexact Hr
  hexit c := by
    have hjoin : iprop((dat m c).arrays ((dat m c).arrAt · cfg0.N) ∗ Pipeline.unscopedRest spec0 c (V1 m c))
        ⊢ (unscopedBufs c (V2 m c) : sProp 𝕄) := by
      rw [Pipeline.unscopedBufs_split₀ cfgs (0 : Fin 1) (by decide) c (V2 m c)]
      refine sep_mono (arrays_out m c (V2 m c) _
        ((arrAt_in m c 0 rfl _).trans (W2_of_ne m c main_v0 (by decide)).symm)
        ((arrAt_in m c 1 rfl _).trans (W2_of_ne m c main_v0 (by decide)).symm)
        ((arrAt_in m c 2 rfl _).trans (W2_of_ne m c main_v3 (by decide)).symm)
        ((arrAt_in m c 3 rfl _).trans (W2_of_ne m c main_v4 (by decide)).symm)
        ((arrAt_in m c 4 rfl _).trans (W2_of_ne m c main_arg1 (by decide)).symm)
        (W2_out m c).symm) (Entails.of_eq ?_)
      unfold Pipeline.unscopedRest
      exact bigSep_congr fun b hb => by
        rw [show V2 m c b = V1 m c b from W2_of_ne m c b fun e => (Finset.mem_sdiff.mp hb).2 (Finset.mem_image.mpr ⟨5, Finset.mem_univ _, e ▸ rfl⟩)]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's three segments. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Frm

end
-- ==== Proof.KernelFrame.lean ====
/-
  The frame claim of the loss program, read off its run: no host line writes an argument array and the kernel
  only reads them (the distance matrix through a window, the embeddings not at all: it reads their bf16 copy),
  so each argument's buffer walks back from the final contents to the launch memory.
-/
import proofs.«151003_j23407571763518_2_alg».proof.Proof.KernelRun

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_main m ρ)

end Cert.Kernel.Frm

end
-- ==== Proof.KernelIdealShared.lean ====
/-
  What the three runs of the loss kernel's body share, at any float instance.
  The grid is 4 x 8: coordinate 0 names a band of 1024 rows, coordinate 1 a strip of 512 columns; point t is
  (t / 8, t % 8). The body zeroes its accumulator at the first strip of a band (t % 8 = 0), adds the tile's
  masked sum of squares into it at every strip, and copies it to the band's output block at the last strip
  (t % 8 = 7). Here: the buffers' contents when the region is entered (after the host lines before it), each
  window's block at a point, the two conditions in closed form, where the output window is idle, and the
  kernel's invariant opened at its accumulator.
-/
import proofs.«151003_j23407571763518_2_alg».proof.Proof.Gen.KernelIdeal.Launch
import proofs.«151003_j23407571763518_2_alg».proof.Proof.Gen.KernelIdeal.Skeleton
import proofs.«151003_j23407571763518_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers around the region -/

/-- Core `c`'s buffers at launch. -/
abbrev W0 (c : Dev nD) : Valuation τ sig (Elt F) := fun b => m (c, b)
/-- After the host lines before the region: the bf16 copy of the embeddings, their squares, the row sums of
    the squares, and the two reshapes of those sums. -/
abbrev W1 (c : Dev nD) : Valuation τ sig (Elt F) := StableHlo.after hostOps0 (W0 m c)
/-- The same read at a TensorCore reference: what the region finds. -/
abbrev V1 (c : Dev nD) (b : Ref sig .tc) : Buf (Elt F) ((c : Thread nD τ).loc b) := W1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-! ## The body's two conditions -/

/-- "This is the band's first strip": the condition under which the accumulator is zeroed. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the band's last strip": the condition under which the accumulator is copied out. -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Off a band's last strip the body stores nothing into the output block, and the block is not written back. -/
theorem idle5 : ∀ t : Fin cfg0.N, ¬condLast (grid0.coords t) → cfg0.idle 5 (grid0.coords t) = true := by decide +kernel
theorem noFlush5 : ∀ t : Fin cfg0.N, ¬condLast (grid0.coords t) → (cfg0.win 5).flush t = false := by decide +kernel
theorem live5 : ∀ t : Fin cfg0.N, condLast (grid0.coords t) → cfg0.idle 5 (grid0.coords t) = false := by decide +kernel

/-! ## The memrefs the body is called with -/

abbrev VO5 : View sig .tc .vmem S1x8x128 .f32 := (Memref.whole cc0_stg5_0 : Memref sig .tc .vmem S1x8x128 .f32).view
abbrev ms0 (t : Fin cfg0.N) : Memref sig .tc .vmem S1024x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x128 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S1x8x128 .f32 := Memref.whole cc0_scratch0
abbrev VS : View sig .tc .vmem S1x8x128 .f32 := accM.view

/-- The kernel's class invariant, with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frm

end
-- ==== Proof.KernelIdealRunFirst.lean ====
/-
  The body's run at a band's FIRST strip: the accumulator, whatever it held, is zeroed, then the tile's masked
  sum is added at its corner entry; the output block is left as found. The pieces the accumulator ends with
  are found by running the body.
-/
import proofs.«151003_j23407571763518_2_alg».proof.Proof.KernelIdealShared

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i)
    (x0 : Vec F S1024x768 .bf16) (x1 : Vec F S512x768 .bf16) (x2 : Vec F S1024x1 .f32) (x3 : Vec F S1x512 .f32) (x4 : Vec F S1024x512 .f32) :
    Σ' (L5 : List (View.Piece (Elt F) S1x8x128 .f32)), { LS : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frm

end
-- ==== Proof.KernelIdealRunMid.lean ====
/-
  The body's run at a strip that is neither a band's first nor its last: the tile's masked sum is added at the
  corner entry of the accumulator the strip before left; the output block is left as found.
-/
import proofs.«151003_j23407571763518_2_alg».proof.Proof.KernelIdealRunFirst

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i)
    (x0 : Vec F S1024x768 .bf16) (x1 : Vec F S512x768 .bf16) (x2 : Vec F S1024x1 .f32) (x3 : Vec F S1x512 .f32) (x4 : Vec F S1024x512 .f32) (xs : Vec F S1x8x128 .f32) :
    Σ' (L5 : List (View.Piece (Elt F) S1x8x128 .f32)), { LS : List (View.Piece (Elt F) S1x8x128 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨[], ?_, fun xi5 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frm

end
-- ==== Proof.KernelIdealRunLast.lean ====
/-
  The body's run at a band's LAST strip: the tile's masked sum is added at the corner entry of the accumulator
  the strip before left, and the accumulator is then copied whole into the band's output block.
-/
import proofs.«151003_j23407571763518_2_alg».proof.Proof.KernelIdealRunMid

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i)
    (x0 : Vec F S1024x768 .bf16) (x1 : Vec F S512x768 .bf16) (x2 : Vec F S1024x1 .f32) (x3 : Vec F S1x512 .f32) (x4 : Vec F S1024x512 .f32) (xs : Vec F S1x8x128 .f32) :
    Σ' (L5 : List (View.Piece (Elt F) S1x8x128 .f32)), { LS : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__loss_kernel i arg2 harg2 arg3 harg3 arg4 harg4 arg5 harg5 arg6 harg6 arg7 harg7 arg8 harg8) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Frm

end
-- ==== Proof.KernelIdealData.lean ====
/-
  What the loss kernel's body leaves at each point, and the proof data of its pipeline.
  `outsAt n` is the pair (output block, accumulator) after the body at point n: at a band's first strip the
  accumulator is what the first-strip run leaves of the point's blocks alone; at any other strip what the run
  leaves over the accumulator of the point before; the output block is named only at a band's last strip,
  where the body copies the accumulator into it (elsewhere the window is idle and nothing reads it).
  The invariant carries the accumulator at `outsAt`'s second component from point to point. The embeddings'
  bf16 copy is read through two windows (row band and column strip): each holds half of that array.
-/
import proofs.«151003_j23407571763518_2_alg».proof.Proof.KernelIdealRunLast

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each case's run leaves -/

theorem coverFirst (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i) (x0 : Vec F S1024x768 .bf16) (x1 : Vec F S512x768 .bf16) (x2 : Vec F S1024x1 .f32) (x3 : Vec F S1x512 .f32) (x4 : Vec F S1024x512 .f32) (y : S1x8x128.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S1x8x128.size (by sl_kernel_rfl) y
/-- The accumulator after a band's first strip. -/
def accFirst (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i) (x0 : Vec F S1024x768 .bf16) (x1 : Vec F S512x768 .bf16) (x2 : Vec F S1024x1 .f32) (x3 : Vec F S1x512 .f32) (x4 : Vec F S1024x512 .f32) : Vec F S1x8x128 .f32 :=
  VS.read (Elt F) (VS.writes (Elt F) VS.junk (runFirst c i arg2 harg2 arg3 harg3 arg4 harg4 arg5 harg5 arg6 harg6 arg7 harg7 arg8 harg8 hc0 hc1 x0 x1 x2 x3 x4).2.1)

theorem coverMid (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i) (x0 : Vec F S1024x768 .bf16) (x1 : Vec F S512x768 .bf16) (x2 : Vec F S1024x1 .f32) (x3 : Vec F S1x512 .f32) (x4 : Vec F S1024x512 .f32) (xs : Vec F S1x8x128 .f32) (y : S1x8x128.Idx) :
    ∃ pc ∈ (runMid c i arg2 harg2 arg3 harg3 arg4 harg4 arg5 harg5 arg6 harg6 arg7 harg7 arg8 harg8 hc0 hc1 x0 x1 x2 x3 x4 xs).2.1, y ∈ pc.1.set :=
  View.cover_of_tiledL (runMid c i arg2 harg2 arg3 harg3 arg4 harg4 arg5 harg5 arg6 harg6 arg7 harg7 arg8 harg8 hc0 hc1 x0 x1 x2 x3 x4 xs).2.1 S1x8x128.size (by sl_kernel_rfl) y
/-- The accumulator after a middle strip, over what the strip before left (`xs`). -/
def accMid (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  VS.read (Elt F) (VS.writes (Elt F) VS.junk (runMid c i arg2 harg2 arg3 harg3 arg4 harg4 arg5 harg5 arg6 harg6 arg7 harg7 arg8 harg8 hc0 hc1 x0 x1 x2 x3 x4 xs).2.1)

theorem coverLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) (y : S1x8x128.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S1x8x128.size (by sl_kernel_rfl) y
/-- The accumulator after a band's last strip. -/
def accLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  VS.read (Elt F) (VS.writes (Elt F) VS.junk (runLast c i arg2 harg2 arg3 harg3 arg4 harg4 arg5 harg5 arg6 harg6 arg7 harg7 arg8 harg8 hc0 hc1 x0 x1 x2 x3 x4 xs).2.1)
theorem coverOut (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) (y : S1x8x128.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S1x8x128.size (by sl_kernel_rfl) y
/-- The band's output block after its last strip. -/
def outLast (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  VO5.read (Elt F) (VO5.writes (Elt F) VO5.junk (runLast c i arg2 harg2 arg3 harg3 arg4 harg4 arg5 harg5 arg6 harg6 arg7 harg7 arg8 harg8 hc0 hc1 x0 x1 x2 x3 x4 xs).1)

/-- The output block where the body stores nothing into it: contents nothing reads. -/
def idleOut : Vec F S1x8x128 .f32 := VO5.read (Elt F) VO5.junk

/-! ## The accumulation -/

abbrev firstAt (c : Dev nD) (t : Fin cfg0.N) (h0 : t.val % 8 = 0) (h1 : ¬t.val % 8 = 7) : Vec F S1x8x128 .f32 :=
  accFirst c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t) (iblk m c 4 t)
abbrev midAt (c : Dev nD) (t : Fin cfg0.N) (h0 : ¬t.val % 8 = 0) (h1 : ¬t.val % 8 = 7) (xs : Vec F S1x8x128 .f32) : Vec F S1x8x128 .f32 :=
  accMid c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (iblk m c 4 t) xs
abbrev lastAt (c : Dev nD) (t : Fin cfg0.N) (h0 : ¬t.val % 8 = 0) (h1 : t.val % 8 = 7) (xs : Vec F S1x8x128 .f32) : Vec F S1x8x128 .f32 :=
  accLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (iblk m c 4 t) xs
abbrev outAt (c : Dev nD) (t : Fin cfg0.N) (h0 : ¬t.val % 8 = 0) (h1 : t.val % 8 = 7) (xs : Vec F S1x8x128 .f32) : Vec F S1x8x128 .f32 :=
  outLast c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (iblk m c 4 t) xs

/-- (output block, accumulator) after the body at point `n`. -/
def outsAt (c : Dev nD) : (n : ℕ) → n < cfg0.N → Vec F S1x8x128 .f32 × Vec F S1x8x128 .f32
  | 0, hn => (idleOut, firstAt m c ⟨0, hn⟩ (Nat.zero_mod _) (show ¬(0 : ℕ) % 8 = 7 by decide))
  | n + 1, hn =>
    if h0 : (n + 1) % 8 = 0 then
      if h1 : (n + 1) % 8 = 7 then False.elim (by omega)
      else (idleOut, firstAt m c ⟨n + 1, hn⟩ h0 h1)
    else
      if h1 : (n + 1) % 8 = 7 then
        (outAt m c ⟨n + 1, hn⟩ h0 h1 (outsAt c n (Nat.lt_of_succ_lt hn)).2, lastAt m c ⟨n + 1, hn⟩ h0 h1 (outsAt c n (Nat.lt_of_succ_lt hn)).2)
      else (idleOut, midAt m c ⟨n + 1, hn⟩ h0 h1 (outsAt c n (Nat.lt_of_succ_lt hn)).2)

theorem outsAt_first (c : Dev nD) (t : Fin cfg0.N) (h0 : t.val % 8 = 0) (h1 : ¬t.val % 8 = 7) :
    outsAt m c t.val t.isLt = (idleOut, firstAt m c t h0 h1) := by
  obtain ⟨n, hn⟩ := t
  cases n with
  | zero => exact rfl
  | succ n => exact (dif_pos h0).trans ((dif_neg h1).trans rfl)

theorem outsAt_mid (c : Dev nD) (t : Fin cfg0.N) (h0 : ¬t.val % 8 = 0) (h1 : ¬t.val % 8 = 7) :
    outsAt m c t.val t.isLt = (idleOut, midAt m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt m c t.val t.isLt = (outAt m c t h0 h1 (outsAt m c (t.val - 1) (Nat.lt_of_le_of_lt (Nat.sub_le _ _) t.isLt)).2, lastAt m c t h0 h1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the region finds them; after the body each input's buffer at its block, the output's at
    `outsAt`; the two windows on the bf16 embeddings at the two halves of that array, every other at the whole. -/
def dat (c : Dev nD) : Dat τ (Elt F) Unit ℕ (UR sig nD τ) ℕ cfg0 c where
  A w := V1 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dat m c).A w = V1 m c (Pipeline.arrRef spec0 w) := by
  dsimp only [dat]
theorem PhiS_castSucc (c : Dev nD) (t : Fin cfg0.N) :
    (dat m c).Φ t.castSucc = PhiS m c t.val (Nat.le_of_lt t.isLt) := by
  dsimp only [dat]; simp only [Fin.coe_castSucc]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = iblk m c 4 t := by dsimp only [dat]
theorem after5 (c : Dev nD) (t : Fin cfg0.N) : (dat m c).after 5 t = (outsAt m c t.val t.isLt).1 := by dsimp only [dat]

/-- Each input's current staging buffer holds its block at every point, fetched there or not. -/
theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dat m c).before 4 t d = iblk m c 4 t :=
  ((dat m c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.Frm

end
-- ==== Proof.KernelIdealBody.lean ====
/-
  The body obligation of the loss kernel's pipeline: at every point, from the invariant before the point and
  every window's staging buffer as the pipeline hands it over (each input at its block), the body runs and
  hands back the invariant after the point and every buffer as the proof data say. By cases on the point's
  strip: the first of its band (the accumulator may hold anything; at the very first point nothing named),
  a middle one, or the last (the accumulator also copied to the output block).
-/
import proofs.«151003_j23407571763518_2_alg».proof.Proof.KernelIdealData

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d)))

def bodyPost (c : Dev nD) (t : Fin cfg0.N) : sProp 𝕄 :=
  iprop((dat m c).Φ t.succ ∗ (dat m c).owesAt () t.succ
    ∗ (dat m c).leavesExact 0 t ∗ (dat m c).leavesExact 1 t ∗ (dat m c).leavesExact 2 t
    ∗ (dat m c).leavesExact 3 t ∗ (dat m c).leavesExact 4 t ∗ (dat m c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dat m c).owesAt () t.succ = (dat m c).owesAt () t.castSucc from rfl]
  rw [show (dat m c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [show (dat m c).leavesExact 0 t = owns (c : Thread nD τ) (ms0 t) fullShare ((dat m c).after 0 t) from by
      unfold Dat.leavesExact; rw [live0 t], after0]
    rw [show (dat m c).leavesExact 1 t = owns (c : Thread nD τ) (ms1 t) fullShare ((dat m c).after 1 t) from by
      unfold Dat.leavesExact; rw [live1 t], after1]
    rw [show (dat m c).leavesExact 2 t = owns (c : Thread nD τ) (ms2 t) fullShare ((dat m c).after 2 t) from by
      unfold Dat.leavesExact; rw [live2 t], after2]
    rw [show (dat m c).leavesExact 3 t = owns (c : Thread nD τ) (ms3 t) fullShare ((dat m c).after 3 t) from by
      unfold Dat.leavesExact; rw [live3 t], after3]
    rw [show (dat m c).leavesExact 4 t = owns (c : Thread nD τ) (ms4 t) fullShare ((dat m c).after 4 t) from by
      unfold Dat.leavesExact; rw [live4 t], after4]
    rw [Dat.leavesExact_idle (dat m c) 5 t (idle5 t (fun h => h1 ((hcondLast t).mp h))) (noFlush5 t (fun h => h1 ((hcondLast t).mp h)))]
    rw [outsAt_first m c t h0 h1]
    unfold firstAt accFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runFirst c (grid0.coords t) _ _ _ _ _ _ _ _ _ _ _ _ _ _ ((hcondFirst t).mpr h0) (fun h => h1 ((hcondLast t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · skip
      rw [show (dat m c).leavesExact 0 t = owns (c : Thread nD τ) (ms0 t) fullShare ((dat m c).after 0 t) from by
        unfold Dat.leavesExact; rw [live0 t], after0]
      rw [show (dat m c).leavesExact 1 t = owns (c : Thread nD τ) (ms1 t) fullShare ((dat m c).after 1 t) from by
        unfold Dat.leavesExact; rw [live1 t], after1]
      rw [show (dat m c).leavesExact 2 t = owns (c : Thread nD τ) (ms2 t) fullShare ((dat m c).after 2 t) from by
        unfold Dat.leavesExact; rw [live2 t], after2]
      rw [show (dat m c).leavesExact 3 t = owns (c : Thread nD τ) (ms3 t) fullShare ((dat m c).after 3 t) from by
        unfold Dat.leavesExact; rw [live3 t], after3]
      rw [show (dat m c).leavesExact 4 t = owns (c : Thread nD τ) (ms4 t) fullShare ((dat m c).after 4 t) from by
        unfold Dat.leavesExact; rw [live4 t], after4]
      rw [show (dat m c).leavesExact 5 t = owns (c : Thread nD τ) (ms5 t) fullShare ((dat m c).after 5 t) from by
        unfold Dat.leavesExact; rw [live5 t ((hcondLast t).mpr h1)], after5]
      rw [outsAt_last m c t h0 h1]
      unfold outAt lastAt outLast accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runLast c (grid0.coords t) _ _ _ _ _ _ _ _ _ _ _ _ _ _ (fun h => h0 ((hcondFirst t).mp h)) ((hcondLast t).mpr h1) (iblk m c 0 t) (iblk m c 1 t) (iblk m c 2 t) (iblk m c 3 t) (iblk m c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (coverLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverOut c _ _ _ _ _ _ _ _ _ _ _ _ _ _ _ _ _ _ _ _ _ _ _)
    · skip
      rw [show (dat m c).leavesExact 0 t = owns (c : Thread nD τ) (ms0 t) fullShare ((dat m c).after 0 t) from by
        unfold Dat.leavesExact; rw [live0 t], after0]
      rw [show (dat m c).leavesExact 1 t = owns (c : Thread nD τ) (ms1 t) fullShare ((dat m c).after 1 t) from by
        unfold Dat.leavesExact; rw [live1 t], after1]
      rw [show (dat m c).leavesExact 2 t = owns (c : Thread nD τ) (ms2 t) fullShare ((dat m c).after 2 t) from by
        unfold Dat.leavesExact; rw [live2 t], after2]
      rw [show (dat m c).leavesExact 3 t = owns (c : Thread nD τ) (ms3 t) fullShare ((dat m c).after 3 t) from by
        unfold Dat.leavesExact; rw [live3 t], after3]
      rw [show (dat m c).leavesExact 4 t = owns (c : Thread nD τ) (ms4 t) fullShare ((dat m c).after 4 t) from by
        unfold Dat.leavesExact; rw [live4 t], after4]
      rw [Dat.leavesExact_idle (dat m c) 5 t (idle5 t (fun h => h1 ((hcondLast t).mp h))) (noFlush5 t (fun h => h1 ((hcondLast t).mp h)))]
      rw [outsAt_mid m c t h0 h1]
      unfold midAt accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((runMid c (grid0.coords t) _ _ _ _ _ _ _ _ _ _ _ _ _ _ (fun h => h0 ((hcondFirst t).mp h)) (fun h => h1 ((hcondLast t).mp h)) (iblk m c 0 t) (iblk m c 1 t) (iblk m c 2 t) (iblk m c 3 t) (iblk m c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

end Cert.KernelIdeal.Frm

end
-- ==== Proof.KernelIdealRun.lean ====
/-
  @main of the loss program as three segments — the host lines before the kernel, the kernel's region, the
  host lines after it — run from the launch to the return.
  The one thing particular to this program: the bf16 copy of the embeddings is handed to the kernel TWICE, as
  the row-band window and as the column-strip window. At the region's entry that array's ownership is split in
  two halves, one per window (both only read it); at the exit the halves, still at the same contents, are put
  together again. Every other array goes in and comes out whole; the output array comes out at what the
  write-backs left in it. The run's post names every unscoped buffer's final contents.
-/
import proofs.«151003_j23407571763518_2_alg».proof.Proof.KernelIdealBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The windows' arrays, one by one -/

/-- The pipeline's arrays as a chain: the bf16 embeddings twice, at the two halves. -/
theorem arrays_chain (c : Dev nD) (G : (w : Fin cfg0.W) → Buf (Elt F) ((cfg0.win w).arr.view.loc (c : Thread nD τ))) :
    ((dat m c).arrays G : sProp 𝕄) = iprop(
      (((c : Thread nD τ).loc main_v0) ↦{fullShare.left} G 0) ∗ (((c : Thread nD τ).loc main_v0) ↦{fullShare.right} G 1)
      ∗ (((c : Thread nD τ).loc main_v3) ↦{fullShare} G 2) ∗ (((c : Thread nD τ).loc main_v4) ↦{fullShare} G 3)
      ∗ (((c : Thread nD τ).loc main_arg1) ↦{fullShare} G 4) ∗ (((c : Thread nD τ).loc main_v5) ↦{fullShare} G 5)) := by
  have h : ((dat m c).arrays G : sProp 𝕄) = bigSep Finset.univ fun w : Fin 6 =>
      ((((c : Thread nD τ).loc (Pipeline.arrRef spec0 w)) ↦{(dat m c).share w} G w : sProp 𝕄)) := by
    unfold Dat.arrays
    exact bigSep_congr fun w _ => by rw [(arr_whole0 w).set_eq_univ]
  rw [h, bigSep_W0]
  rfl

/-- The distinct buffers behind the arrays, as a chain. -/
theorem arrBufs_chain (c : Dev nD) (V : (b : Ref sig .tc) → Buf (Elt F) ((c : Thread nD τ).loc b)) :
    (Pipeline.arrBufs (Ix := Unit) (Name := ℕ) (U := UR sig nD τ) (Lvl := ℕ) spec0 c V : sProp 𝕄) = iprop(
      (((c : Thread nD τ).loc main_v0) ↦{fullShare} V main_v0) ∗ (((c : Thread nD τ).loc main_v3) ↦{fullShare} V main_v3)
      ∗ (((c : Thread nD τ).loc main_v4) ↦{fullShare} V main_v4) ∗ (((c : Thread nD τ).loc main_arg1) ↦{fullShare} V main_arg1)
      ∗ (((c : Thread nD τ).loc main_v5) ↦{fullShare} V main_v5)) := by
  unfold Pipeline.arrBufs
  rw [bigSep_eq_bigSepL_of_eq [main_v0, main_v3, main_v4, main_arg1, main_v5] (by decide) (by decide)]
  rfl

/-- ENTRY: the buffers behind the arrays, whole, make the pipeline's arrays — the bf16 embeddings split in halves. -/
theorem arrays_in (c : Dev nD) (V : (b : Ref sig .tc) → Buf (Elt F) ((c : Thread nD τ).loc b))
    (G : (w : Fin cfg0.W) → Buf (Elt F) ((cfg0.win w).arr.view.loc (c : Thread nD τ)))
    (h0 : G 0 = V main_v0) (h1 : G 1 = V main_v0) (h2 : G 2 = V main_v3) (h3 : G 3 = V main_v4) (h4 : G 4 = V main_arg1) (h5 : G 5 = V main_v5) :
    (Pipeline.arrBufs (Ix := Unit) (Name := ℕ) (U := UR sig nD τ) (Lvl := ℕ) spec0 c V : sProp 𝕄) ⊢ (dat m c).arrays G := by
  rw [arrays_chain, arrBufs_chain, h0, h1, h2, h3, h4, h5]
  iintro ⟨H0, H3, H4, HA, H5⟩
  ihave H0' := (pointsTo_share (PosShare.mem_left_op_right fullShare)).1 $$ H0
  icases H0' with ⟨Hl, Hr⟩
  isplitl [Hl]; · iexact Hl
  isplitl [Hr]; · iexact Hr
  isplitl [H3]; · iexact H3
  isplitl [H4]; · iexact H4
  isplitl [HA]; · iexact HA
  iexact H5

/-- EXIT: the pipeline's arrays make the buffers behind them, whole — the two halves of the bf16 embeddings, at one
    contents, joined. -/
theorem arrays_out (c : Dev nD) (V : (b : Ref sig .tc) → Buf (Elt F) ((c : Thread nD τ).loc b))
    (G : (w : Fin cfg0.W) → Buf (Elt F) ((cfg0.win w).arr.view.loc (c : Thread nD τ)))
    (h0 : G 0 = V main_v0) (h1 : G 1 = V main_v0) (h2 : G 2 = V main_v3) (h3 : G 3 = V main_v4) (h4 : G 4 = V main_arg1) (h5 : G 5 = V main_v5) :
    ((dat m c).arrays G : sProp 𝕄) ⊢ Pipeline.arrBufs (Ix := Unit) (Name := ℕ) (U := UR sig nD τ) (Lvl := ℕ) spec0 c V := by
  rw [arrays_chain, arrBufs_chain, h0, h1, h2, h3, h4, h5]
  iintro ⟨Hl, Hr, H3, H4, HA, H5⟩
  isplitl [Hl Hr]
  · iapply (pointsTo_share (PosShare.mem_left_op_right fullShare)).2
    isplitl [Hl]; · iexact Hl
    iexact Hr
  isplitl [H3]; · iexact H3
  isplitl [H4]; · iexact H4
  isplitl [HA]; · iexact HA
  iexact H5

/-! ## The buffers' contents at the segments' boundaries -/

/-- At the region's exit: the output array at what the write-backs left, everything else as entered. -/
def W2 (c : Dev nD) : Valuation τ sig (Elt F) :=
  Function.update (W1 m c) (Proc.devRef .tc main_v5) ((dat m c).arrAt 5 cfg0.N)
abbrev V2 (c : Dev nD) (b : Ref sig .tc) : Buf (Elt F) ((c : Thread nD τ).loc b) := W2 m c (Proc.devRef .tc b)
theorem W2_out (c : Dev nD) : W2 m c (Proc.devRef .tc main_v5) = (dat m c).arrAt 5 cfg0.N := by
  unfold W2; exact Function.update_self ..
theorem W2_of_ne (c : Dev nD) (b : Ref sig .tc) (h : b ≠ main_v5) : W2 m c (Proc.devRef .tc b) = W1 m c (Proc.devRef .tc b) := by
  unfold W2; exact Function.update_of_ne (StableHlo.devRef_ne_of_ne h) ..
/-- After the host lines that follow the region: the sum over the output array and its quotient. -/
abbrev W3 (c : Dev nD) : Valuation τ sig (Elt F) := StableHlo.after hostOps1 (W2 m c)

/-! ## The segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- An input window's array is never written: after every point it holds what the region found. -/
theorem arrAt_in (c : Dev nD) (w : Fin cfg0.W) (hw : (cfg0.win w).isOut = false) (n : ℕ) :
    (dat m c).arrAt w n = V1 m c (Pipeline.arrRef spec0 w) :=
  ((dat m c).arrAt_in w hw n).trans (A_eq m c w)

set_option backward.isDefEq.respectTransparency.types false in
/-- The kernel's region over the thread state "every unscoped buffer at a valuation": entered at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((dat m c).arrays ((dat m c).arrAt · 0) ∗ Pipeline.unscopedRest spec0 c (V1 m c)) := by
      rw [Pipeline.unscopedBufs_split₀ cfgs (0 : Fin 1) (by decide) c (V1 m c)]
      exact sep_mono (arrays_in m c (V1 m c) _ rfl rfl rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin m c)
    unfold Pipeline.ΦA
    iintro ⟨Hp, -, Hr⟩
    isplitl [Hr]; · iexact Hr
    iexact Hp
  hout c := by
    rw [Pipeline.ownSems0_none]
    refine (hout m c).trans ?_
    unfold Pipeline.ΦA
    iintro ⟨Hr, Hp⟩
    isplitl [Hp]; · iexact Hp
    isplitr; · iempintro
    iexact Hr
  hexit c := by
    have hjoin : iprop((dat m c).arrays ((dat m c).arrAt · cfg0.N) ∗ Pipeline.unscopedRest spec0 c (V1 m c))
        ⊢ (unscopedBufs c (V2 m c) : sProp 𝕄) := by
      rw [Pipeline.unscopedBufs_split₀ cfgs (0 : Fin 1) (by decide) c (V2 m c)]
      refine sep_mono (arrays_out m c (V2 m c) _
        ((arrAt_in m c 0 rfl _).trans (W2_of_ne m c main_v0 (by decide)).symm)
        ((arrAt_in m c 1 rfl _).trans (W2_of_ne m c main_v0 (by decide)).symm)
        ((arrAt_in m c 2 rfl _).trans (W2_of_ne m c main_v3 (by decide)).symm)
        ((arrAt_in m c 3 rfl _).trans (W2_of_ne m c main_v4 (by decide)).symm)
        ((arrAt_in m c 4 rfl _).trans (W2_of_ne m c main_arg1 (by decide)).symm)
        (W2_out m c).symm) (Entails.of_eq ?_)
      unfold Pipeline.unscopedRest
      exact bigSep_congr fun b hb => by
        rw [show V2 m c b = V1 m c b from W2_of_ne m c b fun e => (Finset.mem_sdiff.mp hb).2 (Finset.mem_image.mpr ⟨5, Finset.mem_univ _, e ▸ rfl⟩)]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- @main's three segments. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Frm

end
-- ==== Proof.KernelIdealFrame.lean ====
/-
  The frame claim of the loss program, read off its run: no host line writes an argument array and the kernel
  only reads them (the distance matrix through a window, the embeddings not at all: it reads their bf16 copy),
  so each argument's buffer walks back from the final contents to the launch memory.
-/
import proofs.«151003_j23407571763518_2_alg».proof.Proof.KernelIdealRun

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- THE FRAME at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_main m ρ)

end Cert.KernelIdeal.Frm

end
-- ==== Proof.KernelIdealPieces.lean ====
/-
  What the runs' found pieces ARE, as values: at every strip the accumulator ends at the skeleton's payload
  `k0_pay1` — the accumulator it read plus the tile's sum `k0_pay3` at the corner entry — of the point's five
  input blocks; the accumulator it read is the zero payload `k0_pay2` at a band's first strip and what the strip
  before left at any other; at a band's last strip the output block is a copy of that accumulator.
-/
import proofs.«151003_j23407571763518_2_alg».proof.Proof.KernelIdealData
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The two index ramps of the accumulator's shape the body compares against zero. -/
abbrev ramp1 : IVec S1x8x128 32 := iota .tc S1x8x128 32 [1] Facts₀.iota_S1x8x128_d1_w32
abbrev ramp2 : IVec S1x8x128 32 := iota .tc S1x8x128 32 [2] Facts₀.iota_S1x8x128_d2_w32

/-- One strip's update of the accumulator `xs`: the tile's sum of the five blocks added at the corner entry. -/
abbrev step (i : grid0.Coords) (x0 : Vec F S1024x768 .bf16) (x1 : Vec F S512x768 .bf16) (x2 : Vec F S1024x1 .f32) (x3 : Vec F S1x512 .f32) (x4 : Vec F S1024x512 .f32) (xs : Vec F S1x8x128 .f32) : Vec F S1x8x128 .f32 :=
  k0_pay1 (k0_pay3 i x0 x1 x2 x3 x4) ramp1 ramp2 xs

theorem accMid_eq (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : ¬condLast i) (x0 : Vec F S1024x768 .bf16) (x1 : Vec F S512x768 .bf16) (x2 : Vec F S1024x1 .f32) (x3 : Vec F S1x512 .f32) (x4 : Vec F S1024x512 .f32) (xs : Vec F S1x8x128 .f32) :
    accMid c i arg2 harg2 arg3 harg3 arg4 harg4 arg5 harg5 arg6 harg6 arg7 harg7 arg8 harg8 hc0 hc1 x0 x1 x2 x3 x4 xs = step i x0 x1 x2 x3 x4 xs := by
  unfold accMid
  rw [View.read_writes_eq_canon _ _ _ (coverMid c i arg2 harg2 arg3 harg3 arg4 harg4 arg5 harg5 arg6 harg6 arg7 harg7 arg8 harg8 hc0 hc1 x0 x1 x2 x3 x4 xs)]
  unfold runMid
  dsimp only
  sl_unfold_words
  rw [View.canon_unit_zero hz3]
  simp only [View.readAt_eq_ld, harg2.read_unread, harg3.read_unread, harg4.read_unread, harg5.read_unread, harg6.read_unread, harg8.read_unread,
    View.ld_unit_zero (S := S1024x768) hz2, View.ld_unit_zero (S := S512x768) hz2, View.ld_unit_zero (S := S1024x1) hz2,
    View.ld_unit_zero (S := S1x512) hz2, View.ld_unit_zero (S := S1024x512) hz2, View.ld_unit_zero (S := S1x8x128) hz3]

theorem accLast_eq (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) :
    accLast c i arg2 harg2 arg3 harg3 arg4 harg4 arg5 harg5 arg6 harg6 arg7 harg7 arg8 harg8 hc0 hc1 x0 x1 x2 x3 x4 xs = step i x0 x1 x2 x3 x4 xs := by
  unfold accLast
  rw [View.read_writes_eq_canon _ _ _ (coverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz3]
  simp only [View.readAt_eq_ld, harg2.read_unread, harg3.read_unread, harg4.read_unread, harg5.read_unread, harg6.read_unread, harg8.read_unread,
    View.ld_unit_zero (S := S1024x768) hz2, View.ld_unit_zero (S := S512x768) hz2, View.ld_unit_zero (S := S1024x1) hz2,
    View.ld_unit_zero (S := S1x512) hz2, View.ld_unit_zero (S := S1024x512) hz2, View.ld_unit_zero (S := S1x8x128) hz3]

/-- At a band's last strip the output block is the accumulator just stored. -/
theorem outLast_eq (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : ¬condFirst i) (hc1 : condLast i) (x0 : Vec F S1024x768 .bf16) (x1 : Vec F S512x768 .bf16) (x2 : Vec F S1024x1 .f32) (x3 : Vec F S1x512 .f32) (x4 : Vec F S1024x512 .f32) (xs : Vec F S1x8x128 .f32) :
    outLast c i arg2 harg2 arg3 harg3 arg4 harg4 arg5 harg5 arg6 harg6 arg7 harg7 arg8 harg8 hc0 hc1 x0 x1 x2 x3 x4 xs = step i x0 x1 x2 x3 x4 xs := by
  unfold outLast
  rw [View.read_writes_eq_canon _ _ _ (coverOut c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz3, View.readCov_unit_zero (S := S1x8x128) _ hz3]
  simp only [View.readAt_eq_ld, harg2.read_unread, harg3.read_unread, harg4.read_unread, harg5.read_unread, harg6.read_unread, harg8.read_unread,
    View.ld_unit_zero (S := S1024x768) hz2, View.ld_unit_zero (S := S512x768) hz2, View.ld_unit_zero (S := S1024x1) hz2,
    View.ld_unit_zero (S := S1x512) hz2, View.ld_unit_zero (S := S1024x512) hz2, View.ld_unit_zero (S := S1x8x128) hz3]

/-- At a band's first strip the accumulator read is the zero payload just stored. -/
theorem accFirst_eq (c : Dev nD) (i : grid0.Coords) (arg2 : Memref sig .tc .vmem S1024x768 .bf16) (harg2 : arg2.IsWhole) (arg3 : Memref sig .tc .vmem S512x768 .bf16) (harg3 : arg3.IsWhole) (arg4 : Memref sig .tc .vmem S1024x1 .f32) (harg4 : arg4.IsWhole) (arg5 : Memref sig .tc .vmem S1x512 .f32) (harg5 : arg5.IsWhole) (arg6 : Memref sig .tc .vmem S1024x512 .f32) (harg6 : arg6.IsWhole) (arg7 : Memref sig .tc .vmem S1x8x128 .f32) (harg7 : arg7.IsWhole) (arg8 : Memref sig .tc .vmem S1x8x128 .f32) (harg8 : arg8.IsWhole) (hc0 : condFirst i) (hc1 : ¬condLast i) (x0 : Vec F S1024x768 .bf16) (x1 : Vec F S512x768 .bf16) (x2 : Vec F S1024x1 .f32) (x3 : Vec F S1x512 .f32) (x4 : Vec F S1024x512 .f32) :
    accFirst c i arg2 harg2 arg3 harg3 arg4 harg4 arg5 harg5 arg6 harg6 arg7 harg7 arg8 harg8 hc0 hc1 x0 x1 x2 x3 x4 = step i x0 x1 x2 x3 x4 (k0_pay2 (F := F)) := by
  unfold accFirst
  rw [View.read_writes_eq_canon _ _ _ (coverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S1x8x128) hz3, View.readCov_unit_zero (S := S1x8x128) _ hz3]
  simp only [View.readAt_eq_ld, harg2.read_unread, harg3.read_unread, harg4.read_unread, harg5.read_unread, harg6.read_unread, harg8.read_unread,
    View.ld_unit_zero (S := S1024x768) hz2, View.ld_unit_zero (S := S512x768) hz2, View.ld_unit_zero (S := S1024x1) hz2,
    View.ld_unit_zero (S := S1x512) hz2, View.ld_unit_zero (S := S1024x512) hz2, View.ld_unit_zero (S := S1x8x128) hz3]

variable (m : (ℓ : Loc nD τ sig) → Buf (Elt F) ℓ)

/-- One point's update, at the point's own blocks. -/
abbrev stepAt (c : Dev nD) (t : Fin cfg0.N) (xs : Vec F S1x8x128 .f32) : Vec F S1x8x128 .f32 :=
  step (grid0.coords t) (iblk m c 0 t) (iblk m c 1 t) (iblk m c 2 t) (iblk m c 3 t) (iblk m c 4 t) xs

set_option maxHeartbeats 1600000 in
/-- THE RECURRENCE: the accumulator after point `t` is one update of the zero payload (at a band's first strip) or of
    the accumulator after the point before. -/
theorem acc_rec_first (c : Dev nD) (t : Fin cfg0.N) (h0 : t.val % 8 = 0) (h1 : ¬t.val % 8 = 7) :
    (outsAt m c t.val t.isLt).2 = stepAt m c t (k0_pay2 (F := F)) :=
  (congrArg Prod.snd (outsAt_first m c t h0 h1)).trans (accFirst_eq (F := F) c (grid0.coords t) (ms0 t) (hs0 t) (ms1 t) (hs1 t) (ms2 t) (hs2 t) (ms3 t) (hs3 t) (ms4 t) (hs4 t) (ms5 t) (hs5 t) accM (Memref.isWhole_whole _) ((hcondFirst t).mpr h0) (fun h => h1 ((hcondLast t).mp h)) (iblk m c 0 t) (iblk m c 1 t) (iblk m c 2 t) (iblk m c 3 t) (iblk m c 4 t))

theorem acc_rec_mid (c : Dev nD) (t : Fin cfg0.N) (h0 : ¬t.val % 8 = 0) (h1 : ¬t.val % 8 = 7) :
    (outsAt m c t.val t.isLt).2 = stepAt m c t (outsAt m c (t.val - 1) (Nat.lt_of_le_of_lt (Nat.sub_le _ _) t.isLt)).2 :=
  (congrArg Prod.snd (outsAt_mid m c t h0 h1)).trans (accMid_eq (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) (fun h => h1 ((hcondLast t).mp h)) (iblk m c 0 t) (iblk m c 1 t) (iblk m c 2 t) (iblk m c 3 t) (iblk m c 4 t) (outsAt m c (t.val - 1) (Nat.lt_of_le_of_lt (Nat.sub_le _ _) t.isLt)).2)

theorem acc_rec_last (c : Dev nD) (t : Fin cfg0.N) (h0 : ¬t.val % 8 = 0) (h1 : t.val % 8 = 7) :
    (outsAt m c t.val t.isLt).2 = stepAt m c t (outsAt m c (t.val - 1) (Nat.lt_of_le_of_lt (Nat.sub_le _ _) t.isLt)).2 :=
  (congrArg Prod.snd (outsAt_last m c t h0 h1)).trans (accLast_eq (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2)

/-- At a band's last strip the output block holds the accumulator. -/
theorem out_rec (c : Dev nD) (t : Fin cfg0.N) (h0 : ¬t.val % 8 = 0) (h1 : t.val % 8 = 7) :
    (outsAt m c t.val t.isLt).1 = (outsAt m c t.val t.isLt).2 :=
  ((congrArg Prod.fst (outsAt_last m c t h0 h1)).trans (outLast_eq (F := F) c (grid0.coords t) (ms0 t) (hs0 t) (ms1 t) (hs1 t) (ms2 t) (hs2 t) (ms3 t) (hs3 t) (ms4 t) (hs4 t) (ms5 t) (hs5 t) accM (Memref.isWhole_whole _) (fun h => h0 ((hcondFirst t).mp h)) ((hcondLast t).mpr h1) (iblk m c 0 t) (iblk m c 1 t) (iblk m c 2 t) (iblk m c 3 t) (iblk m c 4 t) (outsAt m c (t.val - 1) (Nat.lt_of_le_of_lt (Nat.sub_le _ _) t.isLt)).2)).trans
    (acc_rec_last m c t h0 h1).symm

end Cert.KernelIdeal.Frm

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibDenseRow.lean ====
/-
  A dense layer's row, read at an entry on the extended reals, for any extents.

  The layer multiplies an `[R, K]` matrix of inputs by the TRANSPOSE of an `[N, K]` weight matrix (so the weight is stored
  one row per output unit), into the zero accumulator, and adds a bias vector `[N]` made a row `[1, N]` and repeated
  down the `R` rows. Entry `(r, g)` is `Σₖ A (r, k) · W (g, k) + bias g`. The three pieces are stated on their own
  too: the transposed matrix at an entry, the repeated bias row at an entry, and the product with the transposed weight.
-/
import Idealize.ShloMosaic.Lib.Pipeline.Value
import Idealize.ShloMosaic.Lib.ValueIdx
import Idealize.ShloMosaic.PureOps.Ideal.Laws
import proofs.«151003_j23407571763518_2_alg».proof.Proof.LibPlainMatmul

noncomputable section

open scoped BigOperators

namespace Cert.LibDenseRow

open Idealize.ShloMosaic Idealize.ShloMosaic.ValueIdx

variable {R K N : ℕ}

/-- The transpose of an `[N, K]` matrix at `(k, g)` is the matrix at `(g, k)`. -/
theorem transpose_at {α : Type} (W : (⟨2, ![N, K]⟩ : Shape).Idx → α)
    (h : (⟨2, ![N, K]⟩ : Shape).Transposes [1, 0] ⟨2, ![K, N]⟩) (k : Fin K) (g : Fin N) :
    transpose ⟨2, ![K, N]⟩ [1, 0] W h (ix2 k g) = W (ix2 g k) :=
  transpose_apply [1, 0] W h (ix2 k g) (ix2 g k) (fun b => match b with
    | ⟨0, _⟩ => rfl
    | ⟨1, _⟩ => rfl)

/-- A vector `[N]` made a row `[1, N]` and repeated down `R` rows reads, at `(r, g)`, the vector at `g`. -/
theorem biasRow_at {α : Type} (bias : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (g : Fin N) :
    broadcastTo ⟨2, ![R, N]⟩ (shapeCast ⟨2, ![1, N]⟩ bias hc) hb (ix2 r g) = bias (ix1 g) := by
  refine (broadcastTo_apply _ hb (ix2 r g) (ix2 (0 : Fin 1) g) (fun a => ?_)).trans ?_
  · match a with
    | ⟨0, _⟩ => show (0 : ℕ) = if (1 : ℕ) = 1 then 0 else _; rw [if_pos rfl]
    | ⟨1, _⟩ =>
      show g.val = if N = 1 then 0 else g.val
      split_ifs with h
      · have := g.isLt; omega
      · rfl
  · refine shapeCast_apply bias hc (ix2 (0 : Fin 1) g) (ix1 g) ?_
    rw [Shape.rowMajor_val_one, Shape.rowMajor_val_two]
    show g.val = 0 * N + g.val
    omega

/-- The product with a transposed weight into the zero accumulator, at `(r, g)`: `Σₖ A (r, k) · W (g, k)`. -/
theorem matmulT_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩) (r : Fin R) (g : Fin N) :
    FloatOps.matmul (DotDims.plain R K N) prec A (transpose ⟨2, ![K, N]⟩ [1, 0] W h)
        (constant ⟨2, ![R, N]⟩ .f32 0x00000000#32) (ix2 r g)
      = ∑ k : Fin K, A (ix2 r k) * W (ix2 g k) := by
  rw [Cert.LibPlainMatmul.matmul_zero_apply]
  exact Finset.sum_congr rfl fun k _ => by rw [transpose_at]

/-- THE DENSE ROW: the product with the transposed weight plus the repeated bias row, at `(r, g)`. -/
theorem dense_at {φ₁ φ₂ : FTy} (prec : Option ContractPrecision) (A : FVec Ideal ⟨2, ![R, K]⟩ φ₁)
    (W : FVec Ideal ⟨2, ![N, K]⟩ φ₂) (h : (⟨2, ![N, K]⟩ : Shape).Transposes [1, 0] ⟨2, ![K, N]⟩)
    (bias : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) (g : Fin N) :
    addf (FloatOps.matmul (DotDims.plain R K N) prec A (transpose ⟨2, ![K, N]⟩ [1, 0] W h)
        (constant ⟨2, ![R, N]⟩ .f32 0x00000000#32)) (broadcastTo ⟨2, ![R, N]⟩ (shapeCast ⟨2, ![1, N]⟩ bias hc) hb) (ix2 r g)
      = (∑ k : Fin K, A (ix2 r k) * W (ix2 g k)) + bias (ix1 g) := by
  rw [addf_apply, matmulT_at, biasRow_at]

end Cert.LibDenseRow

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibMaskedRoll.lean ====
/-
  A matrix shifted by one step the way a kernel does it: rotate its rows or its columns, then mask the line that the
  rotation brought around the end. The facts here are general in the extents: the row and the column counter of an
  `[a, b]` matrix read at an entry, a rotation of the rows or of the columns read at an entry as the matrix at the
  entry moved back by the amount around the end, and a select on the equality of two small numbers compared as 32-bit
  words.
-/
import Idealize.ShloMosaic.Lib.ValueIdx
import Idealize.ShloMosaic.Lib.KernelVsHost

noncomputable section

namespace Cert.LibMaskedRoll

open Idealize.ShloMosaic Idealize.ShloMosaic.ValueIdx

/-- Comparing two numbers below 2³² as 32-bit words and selecting on the answer selects on their equality. -/
theorem select_cmpi_eq {α : Type} (n k : ℕ) (hn : n < 2 ^ 32) (hk : k < 2 ^ 32) (x y : α) :
    Scalar.select (IntOp.cmpi .eq (BitVec.ofNat 32 n) (BitVec.ofNat 32 k)) x y = if n = k then x else y := by
  show (if BitVec.ofBool (BitVec.ofNat 32 n == BitVec.ofNat 32 k) = 1#1 then x else y) = _
  by_cases h : n = k
  · subst h
    rw [beq_self_eq_true, if_pos rfl]
    exact if_pos rfl
  · have hne : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    rw [beq_false_of_ne hne, if_neg h]
    exact if_neg (by decide)

/-- The row counter of an `[a, b]` matrix at `(r, c)` is `r`, -/
theorem rowIota_apply {a b : ℕ} (h : (⟨2, ![a, b]⟩ : Shape).Iotas .tc 32 [0]) (r : Fin a) (c : Fin b) :
    iota .tc ⟨2, ![a, b]⟩ 32 [0] h (ix2 r c) = BitVec.ofNat 32 r.val := by
  show BitVec.ofNat 32 (0 * a + r.val) = _
  rw [Nat.zero_mul, Nat.zero_add]

/-- and its column counter is `c`. -/
theorem colIota_apply {a b : ℕ} (h : (⟨2, ![a, b]⟩ : Shape).Iotas .tc 32 [1]) (r : Fin a) (c : Fin b) :
    iota .tc ⟨2, ![a, b]⟩ 32 [1] h (ix2 r c) = BitVec.ofNat 32 c.val := by
  show BitVec.ofNat 32 (0 * b + c.val) = _
  rw [Nat.zero_mul, Nat.zero_add]

/-- An `[a, b]` matrix rotated along its rows by an amount that is `s` modulo `a`, read at `(r, c)`, is the matrix at row
    `(r + a - s) mod a` of the same column. -/
theorem rotRows_apply {α : Type} {a b : ℕ} (y : (⟨2, ![a, b]⟩ : Shape).Idx → α) (h : (⟨2, ![a, b]⟩ : Shape).Rotates 0 none)
    (sb : BitVec 32) (s : ℕ) (hs : sb.toNat % a = s) (r : Fin a) (c : Fin b) (r' : Fin a)
    (hr' : r'.val = (r.val + a - s) % a) : dynamicRotate 0 sb none y h (ix2 r c) = y (ix2 r' c) := by
  refine dynamicRotate_apply (0 : Fin 2) sb y h (ix2 r c) (ix2 r' c) fun d => ?_
  match d with
  | ⟨0, _⟩ => show r'.val = (r.val + a - sb.toNat % a) % a; rw [hs, hr']
  | ⟨1, _⟩ => rfl

/-- An `[a, b]` matrix rotated along its columns by an amount that is `s` modulo `b`, read at `(r, c)`, is the matrix at
    column `(c + b - s) mod b` of the same row. -/
theorem rotCols_apply {α : Type} {a b : ℕ} (y : (⟨2, ![a, b]⟩ : Shape).Idx → α) (h : (⟨2, ![a, b]⟩ : Shape).Rotates 1 none)
    (sb : BitVec 32) (s : ℕ) (hs : sb.toNat % b = s) (r : Fin a) (c : Fin b) (c' : Fin b)
    (hc' : c'.val = (c.val + b - s) % b) : dynamicRotate 1 sb none y h (ix2 r c) = y (ix2 r c') := by
  refine dynamicRotate_apply (1 : Fin 2) sb y h (ix2 r c) (ix2 r c') fun d => ?_
  match d with
  | ⟨0, _⟩ => rfl
  | ⟨1, _⟩ => show c'.val = (c.val + b - sb.toNat % b) % b; rw [hs, hc']

end Cert.LibMaskedRoll

end
-- ==== Proof.LibMaskSum.lean ====
/-
  Three small general facts, at any shapes and widths.
  (1) A word comparison for equality is the bit 1 exactly when the two words are equal.
  (2) Masking by a bit: on the extended reals x * (1 - b) is 0 when the one-bit word b is set and x when it is clear —
      for EVERY x, infinite or not, because x * 0 = 0 and x * 1 = x hold on all of EReal. It is what
      `v * (1 - eye)` or `v * (1 - mask.astype(float))` means against a `select mask 0 v`.
  (3) A sum over the index set of a rank-3 shape is the triple sum over its coordinates.
-/
import Idealize.ShloMosaic.PureOps.Ideal
import Idealize.ShloMosaic.Lib.ValueIdx

noncomputable section
open scoped BigOperators

namespace Cert.LibMaskSum

open Idealize.ShloMosaic Idealize.ShloMosaic.ValueIdx

/-- A word comparison for equality is the bit 1 exactly when the words are equal. -/
theorem cmpi_eq_one {w : ℕ} (x y : BitVec w) : IntOp.cmpi .eq x y = 1#1 ↔ x = y := by
  unfold IntOp.cmpi
  by_cases h : x = y
  · subst h; simp
  · have hb : (x == y) = false := beq_eq_false_iff_ne.mpr h
    rw [hb]; simp [h]

/-- A one-bit word is 1 or 0. -/
theorem bit_cases (b : BitVec 1) : b = 1#1 ∨ b = 0#1 := by
  have : ∀ b : BitVec 1, b = 1#1 ∨ b = 0#1 := by decide
  exact this b

/-- Multiplying by 1 minus a bit read as a number masks: the bit set (`P`) gives 0, clear gives the value. -/
theorem mul_one_sub_bit (x : EReal) (b : BitVec 1) (P : Prop) [Decidable P] (hb : b = 1#1 ↔ P) :
    x * (1 - (((b.toNat : ℝ)) : EReal)) = if P then 0 else x := by
  rcases bit_cases b with h | h
  · have hP : P := hb.mp h
    rw [if_pos hP, h]
    have e : (1 : EReal) - ((((1#1 : BitVec 1).toNat : ℝ)) : EReal) = 0 := by
      have h1 : (((1#1 : BitVec 1).toNat : ℝ)) = 1 := by norm_num
      rw [h1, ← EReal.coe_one, ← EReal.coe_sub, sub_self, EReal.coe_zero]
    rw [e, mul_zero]
  · have hP : ¬P := fun p => by have := hb.mpr p; rw [h] at this; exact absurd this (by decide)
    rw [if_neg hP, h]
    simp

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibMaskSum

end
-- ==== Proof.KernelIdealTile.lean ====
/-
  The tile's masked sum of squared differences, at the exact reals.
  Over the five blocks of one grid point (i, j) — a band x0 of 1024 embedding rows, a strip x1 of 512 embedding
  rows, their squared norms x2 (a column) and x3 (a row), and the 1024 x 512 tile x4 of target distances — the
  body's one scalar is  sum over p < 1024, q < 512 of  m(p, q),  where m(p, q) is 0 when row 1024 i + p and column
  512 j + q are the same index and otherwise the square of  (x2 p + x3 q) - 2 <x0 p, x1 q> - x4 (p, q).
  The diagonal test is made on 32-bit words, p - q against 512 j - 1024 i: below 2^32 nothing wraps.
-/
import proofs.«151003_j23407571763518_2_alg».proof.Proof.Gen.KernelIdeal.Skeleton
import proofs.«151003_j23407571763518_2_alg».proof.Proof.LibDenseRow
import proofs.«151003_j23407571763518_2_alg».proof.Proof.LibKeepdims
import proofs.«151003_j23407571763518_2_alg».proof.Proof.LibKeepdimsCols
import proofs.«151003_j23407571763518_2_alg».proof.Proof.LibBlockLayout
import proofs.«151003_j23407571763518_2_alg».proof.Proof.LibMaskedRoll
import proofs.«151003_j23407571763518_2_alg».proof.Proof.LibMaskSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen Cert.LibMaskSum

/-- The f32 words the programs print for 0 and 2, at the exact reals (never evaluated: the same words stand on both sides). -/
abbrev zero32 : EReal := Ideal.ofBits .f32 0x00000000#32
abbrev two32 : EReal := Ideal.ofBits .f32 0x40000000#32

/-- The diagonal test on words: for a point (i, j) of the 4 x 8 grid and a tile position (p, q), the words p - q and
    512 j - 1024 i are equal exactly when row 1024 i + p is column 512 j + q. -/
theorem diag_word (i j p q : ℕ) (hi : i < 4) (hj : j < 8) (hp : p < 1024) (hq : q < 512) :
    IntOp.cmpi .eq (IntOp.subi (BitVec.ofNat 32 p) (BitVec.ofNat 32 q))
        (Scalar.subi (Scalar.muli (BitVec.ofNat 32 j) 512#32) (Scalar.muli (BitVec.ofNat 32 i) 1024#32)) = 1#1
      ↔ 1024 * i + p = 512 * j + q := by
  rw [cmpi_eq_one]
  unfold IntOp.subi Scalar.subi Scalar.muli IntOp.subi IntOp.muli
  constructor
  · intro h; bv_omega
  · intro h; bv_omega

/-- One tile position's term. -/
def cell (x0 : Vec Ideal S1024x768 .bf16) (x1 : Vec Ideal S512x768 .bf16) (x2 : Vec Ideal S1024x1 .f32)
    (x3 : Vec Ideal S1x512 .f32) (x4 : Vec Ideal S1024x512 .f32) (p : Fin 1024) (q : Fin 512) : EReal :=
  (((x2 (ix2 p (0 : Fin 1)) + x3 (ix2 (0 : Fin 1) q)) - two32 * (∑ k : Fin 768, x0 (ix2 p k) * x1 (ix2 q k))) - x4 (ix2 p q))
    * (((x2 (ix2 p (0 : Fin 1)) + x3 (ix2 (0 : Fin 1) q)) - two32 * (∑ k : Fin 768, x0 (ix2 p k) * x1 (ix2 q k))) - x4 (ix2 p q))

theorem tile_at (i : grid0.Coords) (x0 : Vec Ideal S1024x768 .bf16) (x1 : Vec Ideal S512x768 .bf16) (x2 : Vec Ideal S1024x1 .f32)
    (x3 : Vec Ideal S1x512 .f32) (x4 : Vec Ideal S1024x512 .f32) :
    k0_pay3 (F := Ideal) i x0 x1 x2 x3 x4 (ix2 (0 : Fin 1) (0 : Fin 1))
      = ∑ p : Fin 1024, ∑ q : Fin 512,
          (if 1024 * (i 0).val + p.val = 512 * (i 1).val + q.val then zero32 else cell x0 x1 x2 x3 x4 p q) := by
  unfold k0_pay3
  dsimp only
  simp only [shapeCast_self]
  refine (Cert.LibKeepdims.shapeCast_a_a1_apply _ _ (0 : Fin 1) (0 : Fin 1)).trans ?_
  refine (Cert.LibKeepdimsCols.multiReduction_add_cols _ _ _ _ _ (0 : Fin 1)).trans ?_
  refine Finset.sum_congr rfl fun p _ => ?_
  refine (Cert.LibKeepdims.shapeCast_a_a1_apply _ _ p (0 : Fin 1)).trans ?_
  refine (Cert.LibKeepdims.multiReduction_add_rows _ _ _ _ _ p).trans ?_
  refine Finset.sum_congr rfl fun q _ => ?_
  have hi0 : (i 0).val < 4 := (i 0).isLt
  have hi1 : (i 1).val < 8 := (i 1).isLt
  have hm := Cert.LibDenseRow.matmulT_at (φ₁ := FTy.bf16) (φ₂ := FTy.bf16) none x0 x1 Facts₀.transposes_S512x768_p1_0_S768x512 p q
  have hc := Cert.LibKeepdims.broadcastTo_a1_ab_apply x2 Facts₀.broadcasts_S1024x1_S1024x512 p q
  have hr := Cert.LibBlockLayout.rowBroadcast_at x3 Facts₀.broadcasts_S1x512_S1024x512 p q
  show Scalar.select (IntOp.cmpi .eq (IntOp.subi (iota .tc S1024x512 32 [0] Facts₀.iota_S1024x512_d0_w32 (ix2 p q))
      (iota .tc S1024x512 32 [1] Facts₀.iota_S1024x512_d1_w32 (ix2 p q))) _) _ _ = _
  rw [Cert.LibMaskedRoll.rowIota_apply, Cert.LibMaskedRoll.colIota_apply]
  unfold Scalar.select
  show (if IntOp.cmpi .eq (IntOp.subi (BitVec.ofNat 32 p.val) (BitVec.ofNat 32 q.val))
      (Scalar.subi (Scalar.muli (BitVec.ofNat 32 (i 1).val) 512#32) (Scalar.muli (BitVec.ofNat 32 (i 0).val) 1024#32)) = 1#1
    then zero32 else _) = _
  by_cases hd : 1024 * (i 0).val + p.val = 512 * (i 1).val + q.val
  · rw [if_pos ((diag_word _ _ _ _ hi0 hi1 p.isLt q.isLt).mpr hd), if_pos hd]
  · rw [if_neg (fun h => hd ((diag_word _ _ _ _ hi0 hi1 p.isLt q.isLt).mp h)), if_neg hd]
    unfold cell
    rw [← hm, ← hc, ← hr]
    rfl

end Cert.KernelIdeal.Val

end
-- ==== Proof.KernelIdealAcc.lean ====
/-
  The accumulation across a band's eight strips, at the exact reals, and the output array after the run.
  One strip's update adds the tile's sum at the accumulator's corner entry (0,0,0) and adds the word 0.0 elsewhere;
  the accumulator starts each band at zeros. So after strip j of a band the corner entry is the sum of the band's
  tile sums up to j and every other entry is 0. A band's last strip copies the accumulator to block i of the
  [4, 8, 128] output array: that array ends with the band sums at (i, 0, 0) and 0 elsewhere.
-/
import proofs.«151003_j23407571763518_2_alg».proof.Proof.KernelIdealPieces
import proofs.«151003_j23407571763518_2_alg».proof.Proof.KernelIdealTile

set_option maxRecDepth 16384

noncomputable section
open scoped BigOperators

namespace Cert.KernelIdeal.Val

open Idealize.ShloMosaic Idealize.ShloMosaic.ValueIdx
open Cert.KernelIdeal Cert.KernelIdeal.Gen Cert.KernelIdeal.Frm Cert.LibMaskSum

theorem corner_word (a b : ℕ) (ha : a < 8) (hb : b < 128) :
    IntOp.andi (IntOp.cmpi .eq (BitVec.ofNat 32 a) 0#32) (IntOp.cmpi .eq (BitVec.ofNat 32 b) 0#32) = 1#1 ↔ a = 0 ∧ b = 0 := by
  have hand : ∀ x y : BitVec 1, IntOp.andi x y = 1#1 ↔ x = 1#1 ∧ y = 1#1 := by decide
  rw [hand, cmpi_eq_one, cmpi_eq_one]
  constructor
  · rintro ⟨h1, h2⟩; constructor <;> bv_omega
  · rintro ⟨rfl, rfl⟩; exact ⟨rfl, rfl⟩

theorem pay2_at (idx : S1x8x128.Idx) : k0_pay2 (F := Ideal) idx = zero32 := by
  unfold k0_pay2; (try dsimp only); simp only [shapeCast_self]; rfl

theorem ramp1_at (u : Fin 1) (a : Fin 8) (b : Fin 128) : ramp1 (ix3 u a b) = BitVec.ofNat 32 a.val := by
  show BitVec.ofNat 32 (0 * 8 + a.val) = _
  rw [Nat.zero_mul, Nat.zero_add]
theorem ramp2_at (u : Fin 1) (a : Fin 8) (b : Fin 128) : ramp2 (ix3 u a b) = BitVec.ofNat 32 b.val := by
  show BitVec.ofNat 32 (0 * 128 + b.val) = _
  rw [Nat.zero_mul, Nat.zero_add]

theorem step_at (i : grid0.Coords) (x0 : Vec Ideal S1024x768 .bf16) (x1 : Vec Ideal S512x768 .bf16) (x2 : Vec Ideal S1024x1 .f32)
    (x3 : Vec Ideal S1x512 .f32) (x4 : Vec Ideal S1024x512 .f32) (xs : Vec Ideal S1x8x128 .f32) (u : Fin 1) (a : Fin 8) (b : Fin 128) :
    step (F := Ideal) i x0 x1 x2 x3 x4 xs (ix3 u a b)
      = xs (ix3 u a b) + (if a.val = 0 ∧ b.val = 0 then k0_pay3 (F := Ideal) i x0 x1 x2 x3 x4 (ix2 (0 : Fin 1) (0 : Fin 1)) else zero32) := by
  unfold step k0_pay1
  (try dsimp only)
  simp only [shapeCast_self]
  have hb : broadcastTo S1x8x128 (shapeCast S1x1x1 (k0_pay3 (F := Ideal) i x0 x1 x2 x3 x4) Facts₀.shapeCasts_S1x1_S1x1x1) Facts₀.broadcasts_S1x1x1_S1x8x128 (ix3 u a b)
      = k0_pay3 (F := Ideal) i x0 x1 x2 x3 x4 (ix2 (0 : Fin 1) (0 : Fin 1)) :=
    (broadcastTo_apply _ _ (ix3 u a b) (ix3 (0 : Fin 1) (0 : Fin 1) (0 : Fin 1)) (fun d => by fin_cases d <;> rfl)).trans
      (shapeCast_apply _ _ (ix3 (0 : Fin 1) (0 : Fin 1) (0 : Fin 1)) (ix2 (0 : Fin 1) (0 : Fin 1)) (by first | rfl | decide))
  show xs (ix3 u a b) + Scalar.select (IntOp.andi (IntOp.cmpi .eq (ramp1 (ix3 u a b)) 0#32) (IntOp.cmpi .eq (ramp2 (ix3 u a b)) 0#32))
      (broadcastTo S1x8x128 (shapeCast S1x1x1 (k0_pay3 (F := Ideal) i x0 x1 x2 x3 x4) Facts₀.shapeCasts_S1x1_S1x1x1) Facts₀.broadcasts_S1x1x1_S1x8x128 (ix3 u a b)) zero32 = _
  rw [ramp1_at, ramp2_at, hb]
  unfold Scalar.select
  show xs (ix3 u a b) + (if IntOp.andi (IntOp.cmpi .eq (BitVec.ofNat 32 a.val) 0#32) (IntOp.cmpi .eq (BitVec.ofNat 32 b.val) 0#32) = 1#1
    then k0_pay3 (F := Ideal) i x0 x1 x2 x3 x4 (ix2 (0 : Fin 1) (0 : Fin 1)) else zero32) = _
  by_cases h : a.val = 0 ∧ b.val = 0
  · rw [if_pos ((corner_word _ _ a.isLt b.isLt).mpr h), if_pos h]
  · rw [if_neg (fun h' => h ((corner_word _ _ a.isLt b.isLt).mp h')), if_neg h]

/-! ## The accumulation in closed form -/

variable (m : (ℓ : Loc nD τ sig) → Buf (Elt Ideal) ℓ)

/-- The tile's sum at point `n` of the grid (0 past its end). -/
def tileN (c : Dev nD) (n : ℕ) : EReal :=
  if h : n < cfg0.N then k0_pay3 (F := Ideal) (grid0.coords ⟨n, h⟩) (iblk m c 0 ⟨n, h⟩) (iblk m c 1 ⟨n, h⟩) (iblk m c 2 ⟨n, h⟩)
    (iblk m c 3 ⟨n, h⟩) (iblk m c 4 ⟨n, h⟩) (ix2 (0 : Fin 1) (0 : Fin 1)) else 0

theorem stepAt_at (c : Dev nD) (t : Fin cfg0.N) (xs : Vec Ideal S1x8x128 .f32) (u : Fin 1) (a : Fin 8) (b : Fin 128) :
    stepAt m c t xs (ix3 u a b) = xs (ix3 u a b) + (if a.val = 0 ∧ b.val = 0 then tileN m c t.val else 0) := by
  refine (step_at (grid0.coords t) (iblk m c 0 t) (iblk m c 1 t) (iblk m c 2 t) (iblk m c 3 t) (iblk m c 4 t) xs u a b).trans ?_
  unfold tileN
  rw [dif_pos t.isLt]
  simp only [zero32, Ideal.ofBits_zero_f32]

/-- After point `n`, strip `n % 8` of its band: the corner entry holds the band's tile sums so far, every other entry 0. -/
theorem acc_closed (c : Dev nD) : ∀ (n : ℕ) (h : n < cfg0.N) (u : Fin 1) (a : Fin 8) (b : Fin 128),
    (outsAt m c n h).2 (ix3 u a b)
      = if a.val = 0 ∧ b.val = 0 then ∑ j ∈ Finset.range (n % 8 + 1), tileN m c (n - n % 8 + j) else 0
  | 0, h, u, a, b => by
    have e : (outsAt m c 0 h).2 = stepAt m c ⟨0, h⟩ (k0_pay2 (F := Ideal)) :=
      acc_rec_first m c ⟨0, h⟩ (Nat.zero_mod _) (show ¬(0 : ℕ) % 8 = 7 by decide)
    rw [e, stepAt_at, pay2_at]
    simp only [zero32, Ideal.ofBits_zero_f32, zero_add, Nat.zero_mod, Nat.sub_zero, Finset.sum_range_one]
  | n + 1, h, u, a, b => by
    have hN : n + 1 < 32 := lt_of_lt_of_eq h (show cfg0.N = 32 from N_0)
    by_cases h0 : (n + 1) % 8 = 0
    · have e : (outsAt m c (n + 1) h).2 = stepAt m c ⟨n + 1, h⟩ (k0_pay2 (F := Ideal)) :=
        acc_rec_first m c ⟨n + 1, h⟩ h0 (by show ¬(n + 1) % 8 = 7; omega)
      rw [e, stepAt_at, pay2_at]
      simp only [zero32, Ideal.ofBits_zero_f32, zero_add, h0, Nat.sub_zero, Finset.sum_range_one, add_zero]
    · have e : (outsAt m c (n + 1) h).2 = stepAt m c ⟨n + 1, h⟩ (outsAt m c n (Nat.lt_of_succ_lt h)).2 := by
        by_cases h1 : (n + 1) % 8 = 7
        · exact acc_rec_last m c ⟨n + 1, h⟩ h0 h1
        · exact acc_rec_mid m c ⟨n + 1, h⟩ h0 h1
      rw [e, stepAt_at, acc_closed c n (Nat.lt_of_succ_lt h) u a b]
      by_cases hc : a.val = 0 ∧ b.val = 0
      · rw [if_pos hc, if_pos hc, if_pos hc]
        have e1 : (n + 1) % 8 = n % 8 + 1 := by omega
        have e2 : n + 1 - (n % 8 + 1) = n - n % 8 := by omega
        have e3 : n - n % 8 + (n % 8 + 1) = n + 1 := by omega
        rw [e1, e2, Finset.sum_range_succ _ (n % 8 + 1), e3]
      · rw [if_neg hc, if_neg hc, if_neg hc, add_zero]

/-! ## The output array after the run -/

/-- The [4, 8, 128] array the kernel leaves: band `i`'s eight tile sums added up at (i, 0, 0), zero elsewhere. -/
def OutArr (c : Dev nD) : S4x8x128.Idx → EReal := fun idx =>
  if (idx 1).val = 0 ∧ (idx 2).val = 0 then ∑ j ∈ Finset.range 8, tileN m c (8 * (idx 0).val + j) else 0

theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, win0_5.index t (0 : Fin 3) = t.val / 8 ∧ win0_5.index t (1 : Fin 3) = 0 ∧ win0_5.index t (2 : Fin 3) = 0)

/-- What a band's last strip writes back is that band's block of `OutArr`. -/
theorem flushed_eq (c : Dev nD) (t : Fin cfg0.N) (hf : (cfg0.win 5).flush t = true) :
    (dat m c).flushed 5 t = ((cfg0.win 5).blk t).view.read (Elt Ideal) (OutArr m c) := by
  have h7 : t.val % 8 = 7 := (flush0_5 t).mp hf
  have hN : t.val < 32 := lt_of_lt_of_eq t.isLt (show cfg0.N = 32 from N_0)
  obtain ⟨e0, e1, e2⟩ := idx5 t
  show (cfg0.win 5).cut (grid0.coords t) ((dat m c).after 5 t) = _
  rw [after5, out_rec m c t (by omega) h7]
  funext y
  obtain ⟨u, a, b, rfl⟩ : ∃ (u : Fin 1) (a : Fin 8) (b : Fin 128), y = ix3 u a b := ⟨y 0, y 1, y 2, eq_ix3 y⟩
  rw [View.read_apply]
  show (outsAt m c t.val t.isLt).2 (ix3 u a b) = OutArr m c (((cfg0.win 5).blk t).view.emb (ix3 u a b))
  rw [acc_closed]
  unfold OutArr
  have c0 : ((((cfg0.win 5).blk t).view.emb (ix3 u a b)) 0).val = win0_5.index t (0 : Fin 3) * 1 + 1 * u.val := rfl
  have c1 : ((((cfg0.win 5).blk t).view.emb (ix3 u a b)) 1).val = win0_5.index t (1 : Fin 3) * 8 + 1 * a.val := rfl
  have c2 : ((((cfg0.win 5).blk t).view.emb (ix3 u a b)) 2).val = win0_5.index t (2 : Fin 3) * 128 + 1 * b.val := rfl
  rw [c0, c1, c2, e0, e1, e2]
  have hu : u.val = 0 := by have := u.isLt; omega
  rw [hu, h7]
  have ea : (0 * 8 + 1 * a.val = 0 ∧ 0 * 128 + 1 * b.val = 0) ↔ (a.val = 0 ∧ b.val = 0) := by omega
  have es : t.val - 7 = 8 * (t.val / 8 * 1 + 1 * 0) := by omega
  rw [es]
  exact if_congr ea.symm rfl rfl

/-- Every index of the output array lies in the block some band's last strip writes back. -/
theorem cover5 (i : S4x8x128.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 128 := (i 2).isLt
  have hN : cfg0.N = 32 := N_0
  let t : Fin cfg0.N := ⟨8 * (i 0).val + 7, by omega⟩
  obtain ⟨e0, e1, e2⟩ := idx5 t
  have et : t.val = 8 * (i 0).val + 7 := rfl
  refine ⟨t, (flush0_5 t).mpr (by omega), ?_⟩
  show i ∈ ((View.whole main_v5).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 8 ≤ (i 1).val ∧ (i 1).val < win0_5.index t (1 : Fin 3) * 8 + 8; omega
  | ⟨2, _⟩ => show win0_5.index t (2 : Fin 3) * 128 ≤ (i 2).val ∧ (i 2).val < win0_5.index t (2 : Fin 3) * 128 + 128; omega

/-- THE OUTPUT ARRAY after the run. -/
theorem final5 (c : Dev nD) : (dat m c).arrAt 5 cfg0.N = OutArr m c :=
  (dat m c).arrAt_eq_of_cover 5 (OutArr m c) (flushed_eq m c) (cover5)

/-! ## Its total -/

/-- The sum of every entry of the output array is the sum of all 32 tile sums. -/
theorem sum_OutArr (c : Dev nD) : ∑ idx : S4x8x128.Idx, OutArr m c idx = ∑ i : Fin 4, ∑ j ∈ Finset.range 8, tileN m c (8 * i.val + j) := by
  rw [sum_idx3]
  refine Finset.sum_congr rfl fun i _ => ?_
  unfold OutArr
  show ∑ a : Fin 8, ∑ b : Fin 128, (if a.val = 0 ∧ b.val = 0 then ∑ j ∈ Finset.range 8, tileN m c (8 * i.val + j) else 0) = _
  rw [Fintype.sum_eq_single (0 : Fin 8) (fun a ha => Finset.sum_eq_zero fun b _ => if_neg fun h => ha (Fin.ext h.1)),
    Fintype.sum_eq_single (0 : Fin 128) (fun b hb => if_neg fun h => hb (Fin.ext h.2))]
  exact if_pos ⟨rfl, rfl⟩

end Cert.KernelIdeal.Val
end
-- ==== Proof.LibBlockSum.lean ====
/-
  A finite sum over `Fin n` with `n = a * b` regrouped into `a` consecutive blocks of length `b`: the sum of the
  block sums. It holds in every commutative additive monoid, in particular on the extended reals, where
  it needs no finiteness: only associativity and commutativity of `+` are used.
-/
import Mathlib.Algebra.BigOperators.Fin
import Mathlib.Logic.Equiv.Fin.Basic

namespace Cert.LibBlockSum

open Finset

/-- Position `j` of block `i` among `a` blocks of length `b`: `i * b + j`. -/
def pos {a b n : ℕ} (h : a * b = n) (i : Fin a) (j : Fin b) : Fin n :=
  ⟨i.val * b + j.val, by
    subst h
    have h1 : i.val * b + j.val < (i.val + 1) * b := by
      rw [Nat.add_one_mul]; exact Nat.add_lt_add_left j.isLt _
    exact lt_of_lt_of_le h1 (Nat.mul_le_mul_right b i.isLt)⟩

@[simp] theorem pos_val {a b n : ℕ} (h : a * b = n) (i : Fin a) (j : Fin b) :
    (pos h i j).val = i.val * b + j.val := rfl

/-- The sum over all positions is the sum over the blocks of each block's sum. -/
theorem sum_blocks {M : Type*} [AddCommMonoid M] {a b n : ℕ} (h : a * b = n) (f : Fin n → M) :
    ∑ k : Fin n, f k = ∑ i : Fin a, ∑ j : Fin b, f (pos h i j) := by
  subst h
  rw [← Fintype.sum_prod_type' (fun i j => f (pos rfl i j))]
  refine (Equiv.sum_comp (finProdFinEquiv (m := a) (n := b)) f).symm.trans ?_
  refine Fintype.sum_congr _ _ fun p => congrArg f (Fin.ext ?_)
  show (p.2 : ℕ) + b * (p.1 : ℕ) = (p.1 : ℕ) * b + (p.2 : ℕ)
  rw [Nat.mul_comm, Nat.add_comm]

end Cert.LibBlockSum
-- ==== Proof.LossSpec.lean ====
/-
  The pairwise distance loss as ONE function of the two arrays, over the extended reals.
  For embeddings e (4096 rows of 768 entries), their squared norms sq, and target distances a (4096 x 4096):
    pairLoss r c = ((sq r + sq c) - 2 <e r, e c> - a (r, c))^2,
    masked r c   = 0 if r = c, else pairLoss r c,
    total        = the sum of masked over all ordered pairs (r, c).
  Two laws join the two programs. The kernel sums tile by tile (4 bands of 1024 rows by 8 strips of 512 columns):
  regrouping a finite sum needs only that + is associative and commutative, so it holds on the extended reals with
  no finiteness. The reference multiplies each pairLoss by 1 - [r = c]: on the extended reals x * 0 = 0 and
  x * 1 = x for every x, infinite or not, so that product is masked r c.
-/
import Idealize.ShloMosaic.PureOps.Ideal
import Idealize.ShloMosaic.PureOps.Ideal.Laws
import Idealize.ShloMosaic.Lib.ValueIdx
import proofs.«151003_j23407571763518_2_alg».proof.Proof.LibBlockSum
import proofs.«151003_j23407571763518_2_alg».proof.Proof.LibMaskSum

noncomputable section
open scoped BigOperators

namespace Cert.LossSpec

open Idealize.ShloMosaic Idealize.ShloMosaic.ValueIdx Cert.LibBlockSum Cert.LibMaskSum

/-- The f32 words the programs print for 0, 1 and 2 at the exact reals. -/
abbrev zero32 : EReal := Ideal.ofBits .f32 0x00000000#32
abbrev one32 : EReal := Ideal.ofBits .f32 0x3F800000#32
abbrev two32 : EReal := Ideal.ofBits .f32 0x40000000#32

theorem one32_eq : one32 = 1 := by
  simp [one32, Ideal.ofBits, Ideal.ieee, -EReal.coe_mul]; norm_num

variable (e : (⟨2, ![4096, 768]⟩ : Shape).Idx → EReal) (sq : (⟨1, ![4096]⟩ : Shape).Idx → EReal)
  (a : (⟨2, ![4096, 4096]⟩ : Shape).Idx → EReal)

def pairLoss (r c : Fin 4096) : EReal :=
  (((sq (ix1 r) + sq (ix1 c)) - two32 * (∑ k : Fin 768, e (ix2 r k) * e (ix2 c k))) - a (ix2 r c))
    * (((sq (ix1 r) + sq (ix1 c)) - two32 * (∑ k : Fin 768, e (ix2 r k) * e (ix2 c k))) - a (ix2 r c))

def masked (r c : Fin 4096) : EReal := if r.val = c.val then zero32 else pairLoss e sq a r c

def total : EReal := ∑ r : Fin 4096, ∑ c : Fin 4096, masked e sq a r c

theorem h4 : 4 * 1024 = 4096 := by norm_num
theorem h8 : 8 * 512 = 4096 := by norm_num

/-- The 32 tiles' sums add up to the whole double sum. -/
theorem total_blocks (f : Fin 4096 → Fin 4096 → EReal) :
    ∑ i : Fin 4, ∑ j : Fin 8, ∑ p : Fin 1024, ∑ q : Fin 512, f (pos h4 i p) (pos h8 j q) = ∑ r : Fin 4096, ∑ c : Fin 4096, f r c := by
  rw [sum_blocks h4 (fun r => ∑ c : Fin 4096, f r c)]
  refine Finset.sum_congr rfl fun i _ => ?_
  rw [Finset.sum_comm]
  refine Finset.sum_congr rfl fun p _ => ?_
  exact (sum_blocks h8 (fun c => f (pos h4 i p) c)).symm

/-- The identity matrix's test on words: row counter (plus the word 0) against column counter, below 4096. -/
theorem eye_word (r c : ℕ) (hr : r < 4096) (hc : c < 4096) :
    IntOp.cmpi .eq (IntOp.addi (BitVec.ofNat 32 r) 0#32) (BitVec.ofNat 32 c) = 1#1 ↔ r = c := by
  rw [cmpi_eq_one]
  unfold IntOp.addi
  constructor
  · intro h; bv_omega
  · intro h; bv_omega

/-- Multiplying by 1.0 - [the bit] masks: the bit set gives the word 0.0, clear gives the value. -/
theorem mul_offdiag (x : EReal) (b : BitVec 1) (P : Prop) [Decidable P] (hb : b = 1#1 ↔ P) :
    x * (one32 - (((b.toNat : ℝ)) : EReal)) = if P then zero32 else x := by
  rw [one32_eq, show zero32 = 0 from Ideal.ofBits_zero_f32]
  exact mul_one_sub_bit x b P hb

end Cert.LossSpec

end
-- ==== Proof.KernelIdealValue.lean ====
/-
  The idealized kernel's result as one function of its two argument arrays.
  A window's block at grid point t = 8 i + j is a rectangle of its array: rows 1024 i + p of the embeddings (band
  window) and rows 512 j + q of them (strip window), the same rows of the squared-norm column and row, and tile
  (1024 i + p, 512 j + q) of the target distances. So the tile's masked sum is the specification's masked pair loss
  summed over the tile's global indices, the 32 tiles add up to the whole double sum, and the program returns
  (0 + total) / 16773120.
-/
import proofs.«151003_j23407571763518_2_alg».proof.Proof.KernelIdealAcc
import proofs.«151003_j23407571763518_2_alg».proof.Proof.KernelIdealFrame
import proofs.«151003_j23407571763518_2_alg».proof.Proof.LossSpec
import Idealize.ShloMosaic.Lib.StableHlo.Run

set_option maxRecDepth 16384

noncomputable section
open scoped BigOperators

namespace Cert.KernelIdeal.Val

open Idealize.ShloMosaic Idealize.ShloMosaic.ValueIdx Idealize.ShloMosaic.TcCoe Idealize.SL.Sem Idealize.ShloMosaic.StableHlo
open Cert.KernelIdeal Cert.KernelIdeal.Gen Cert.KernelIdeal.Frm Cert.LibBlockSum

variable (m : (ℓ : Loc nD τ sig) → Buf (Elt Ideal) ℓ)

/-- The two argument arrays on core `c`. -/
abbrev argE (c : Dev nD) : S4096x768.Idx → EReal := m ((c : Thread nD τ).loc main_arg0)
abbrev argA (c : Dev nD) : S4096x4096.Idx → EReal := m ((c : Thread nD τ).loc main_arg1)

/-- The squared norms as the host computes them: the row sums of the entrywise squares, from the word 0.0. -/
def sqv (e : S4096x768.Idx → EReal) : S4096.Idx → EReal :=
  Host.reduceAdd (F := Ideal) (mulf e e) (constant S_ .f32 0x00000000#32) Facts₀.reducesTo_S4096x768_S4096_d1 Facts₀.h_S_

/-! ## What the region finds in its arrays -/

theorem V1_v0 (c : Dev nD) : (V1 m c main_v0 : S4096x768.Idx → EReal) = argE m c := by
  show StableHlo.after hostOps0 (W0 m c) (Proc.devRef .tc main_v0) = _
  after_results
  rfl
theorem V1_arg1 (c : Dev nD) : (V1 m c main_arg1 : S4096x4096.Idx → EReal) = argA m c := by
  show StableHlo.after hostOps0 (W0 m c) (Proc.devRef .tc main_arg1) = _
  after_results
theorem V1_v3 (c : Dev nD) : (V1 m c main_v3 : S4096x1.Idx → EReal) = shapeCast S4096x1 (sqv (argE m c)) Facts₀.shapeCasts_S4096_S4096x1 := by
  show StableHlo.after hostOps0 (W0 m c) (Proc.devRef .tc main_v3) = _
  after_results
  rfl
theorem V1_v4 (c : Dev nD) : (V1 m c main_v4 : S1x4096.Idx → EReal) = shapeCast S1x4096 (sqv (argE m c)) Facts₀.shapeCasts_S4096_S1x4096 := by
  show StableHlo.after hostOps0 (W0 m c) (Proc.devRef .tc main_v4) = _
  after_results
  rfl
theorem V1_v3_at (c : Dev nD) (r : Fin 4096) : (V1 m c main_v3 : S4096x1.Idx → EReal) (ix2 r (0 : Fin 1)) = sqv (argE m c) (ix1 r) := by
  rw [V1_v3]; exact Cert.LibKeepdims.shapeCast_a_a1_apply _ _ r (0 : Fin 1)
theorem V1_v4_at (c : Dev nD) (q : Fin 4096) : (V1 m c main_v4 : S1x4096.Idx → EReal) (ix2 (0 : Fin 1) q) = sqv (argE m c) (ix1 q) := by
  rw [V1_v4]
  refine (shapeCast_addUnit_apply ![4096] _ _ (ix2 (0 : Fin 1) q)).trans (congrArg _ (funext fun a => ?_))
  fin_cases a; rfl

/-! ## The grid's coordinates and the windows' block indices, decided over the grid -/

theorem idxs : ∀ t : Fin cfg0.N, (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8 :=
  (by decide +kernel : ∀ t : Fin grid0.N, (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8)

/-! ## Each window's block at a point, as entries of the argument arrays -/

variable (c : Dev nD) (t : Fin cfg0.N) (i : Fin 4) (j : Fin 8) (ht : t.val = 8 * i.val + j.val)

include ht in
theorem blk0_at (p : Fin 1024) (k : Fin 768) :
    (iblk m c 0 t : Vec Ideal S1024x768 .bf16) (ix2 p k) = argE m c (ix2 (pos LossSpec.h4 i p) k) := by
  obtain ⟨-, -, e0, e1, -⟩ := idxs t
  unfold iblk
  rw [View.read_apply]
  show (V1 m c main_v0 : S4096x768.Idx → EReal) _ = _
  rw [V1_v0]
  refine congrArg (argE m c) (funext fun a => Fin.ext ?_)
  match a with
  | ⟨0, _⟩ => show win0_0.index t (0 : Fin 2) * 1024 + 1 * p.val = i.val * 1024 + p.val; rw [e0]; have := j.isLt; omega
  | ⟨1, _⟩ => show win0_0.index t (1 : Fin 2) * 768 + 1 * k.val = k.val; rw [e1]; omega

include ht in
theorem blk1_at (q : Fin 512) (k : Fin 768) :
    (iblk m c 1 t : Vec Ideal S512x768 .bf16) (ix2 q k) = argE m c (ix2 (pos LossSpec.h8 j q) k) := by
  obtain ⟨-, -, -, -, e0, e1, -⟩ := idxs t
  unfold iblk
  rw [View.read_apply]
  show (V1 m c main_v0 : S4096x768.Idx → EReal) _ = _
  rw [V1_v0]
  refine congrArg (argE m c) (funext fun a => Fin.ext ?_)
  match a with
  | ⟨0, _⟩ => show win0_1.index t (0 : Fin 2) * 512 + 1 * q.val = j.val * 512 + q.val; rw [e0]; have := j.isLt; omega
  | ⟨1, _⟩ => show win0_1.index t (1 : Fin 2) * 768 + 1 * k.val = k.val; rw [e1]; omega

include ht in
theorem blk2_at (p : Fin 1024) :
    (iblk m c 2 t : Vec Ideal S1024x1 .f32) (ix2 p (0 : Fin 1)) = sqv (argE m c) (ix1 (pos LossSpec.h4 i p)) := by
  obtain ⟨-, -, -, -, -, -, e0, e1, -⟩ := idxs t
  unfold iblk
  rw [View.read_apply]
  show (V1 m c main_v3 : S4096x1.Idx → EReal) _ = _
  refine Eq.trans (congrArg _ (funext fun a => Fin.ext ?_)) (V1_v3_at m c (pos LossSpec.h4 i p))
  match a with
  | ⟨0, _⟩ => show win0_2.index t (0 : Fin 2) * 1024 + 1 * p.val = i.val * 1024 + p.val; rw [e0]; have := j.isLt; omega
  | ⟨1, _⟩ => show win0_2.index t (1 : Fin 2) * 1 + 1 * 0 = 0; rw [e1]

include ht in
theorem blk3_at (q : Fin 512) :
    (iblk m c 3 t : Vec Ideal S1x512 .f32) (ix2 (0 : Fin 1) q) = sqv (argE m c) (ix1 (pos LossSpec.h8 j q)) := by
  obtain ⟨-, -, -, -, -, -, -, -, e0, e1, -⟩ := idxs t
  unfold iblk
  rw [View.read_apply]
  show (V1 m c main_v4 : S1x4096.Idx → EReal) _ = _
  refine Eq.trans (congrArg _ (funext fun a => Fin.ext ?_)) (V1_v4_at m c (pos LossSpec.h8 j q))
  match a with
  | ⟨0, _⟩ => show win0_3.index t (0 : Fin 2) * 1 + 1 * 0 = 0; rw [e0]
  | ⟨1, _⟩ => show win0_3.index t (1 : Fin 2) * 512 + 1 * q.val = j.val * 512 + q.val; rw [e1]; have := j.isLt; omega

include ht in
theorem blk4_at (p : Fin 1024) (q : Fin 512) :
    (iblk m c 4 t : Vec Ideal S1024x512 .f32) (ix2 p q) = argA m c (ix2 (pos LossSpec.h4 i p) (pos LossSpec.h8 j q)) := by
  obtain ⟨-, -, -, -, -, -, -, -, -, -, e0, e1⟩ := idxs t
  unfold iblk
  rw [View.read_apply]
  show (V1 m c main_arg1 : S4096x4096.Idx → EReal) _ = _
  rw [V1_arg1]
  refine congrArg (argA m c) (funext fun a => Fin.ext ?_)
  match a with
  | ⟨0, _⟩ => show win0_4.index t (0 : Fin 2) * 1024 + 1 * p.val = i.val * 1024 + p.val; rw [e0]; have := j.isLt; omega
  | ⟨1, _⟩ => show win0_4.index t (1 : Fin 2) * 512 + 1 * q.val = j.val * 512 + q.val; rw [e1]; have := j.isLt; omega

/-! ## A tile's sum is the masked pair loss over the tile's global indices -/

include ht in
theorem cell_eq (p : Fin 1024) (q : Fin 512) :
    cell (iblk m c 0 t) (iblk m c 1 t) (iblk m c 2 t) (iblk m c 3 t) (iblk m c 4 t) p q
      = LossSpec.pairLoss (argE m c) (sqv (argE m c)) (argA m c) (pos LossSpec.h4 i p) (pos LossSpec.h8 j q) := by
  unfold cell LossSpec.pairLoss
  simp only [blk0_at m c t i j ht, blk1_at m c t i j ht, blk2_at m c t i j ht, blk3_at m c t i j ht, blk4_at m c t i j ht]

omit t ht in
theorem tileN_eq :
    tileN m c (8 * i.val + j.val) = ∑ p : Fin 1024, ∑ q : Fin 512,
      LossSpec.masked (argE m c) (sqv (argE m c)) (argA m c) (pos LossSpec.h4 i p) (pos LossSpec.h8 j q) := by
  have hN : cfg0.N = 32 := N_0
  have hlt : 8 * i.val + j.val < cfg0.N := by have := i.isLt; have := j.isLt; omega
  unfold tileN
  rw [dif_pos hlt, tile_at]
  obtain ⟨g0, g1, -⟩ := idxs ⟨8 * i.val + j.val, hlt⟩
  refine Finset.sum_congr rfl fun p _ => Finset.sum_congr rfl fun q _ => ?_
  unfold LossSpec.masked
  have hc : (1024 * (grid0.coords ⟨8 * i.val + j.val, hlt⟩ 0).val + p.val = 512 * (grid0.coords ⟨8 * i.val + j.val, hlt⟩ 1).val + q.val)
      ↔ ((pos LossSpec.h4 i p).val = (pos LossSpec.h8 j q).val) := by
    rw [g0, g1, pos_val, pos_val]
    have := i.isLt; have := j.isLt
    show 1024 * ((8 * i.val + j.val) / 8) + p.val = 512 * ((8 * i.val + j.val) % 8) + q.val ↔ _
    omega
  exact if_congr hc rfl (cell_eq m c ⟨8 * i.val + j.val, hlt⟩ i j rfl p q)

omit t i j ht in
/-- The 32 tiles add up to the whole double sum. -/
theorem kernel_total :
    ∑ i : Fin 4, ∑ j ∈ Finset.range 8, tileN m c (8 * i.val + j) = LossSpec.total (argE m c) (sqv (argE m c)) (argA m c) := by
  unfold LossSpec.total
  rw [← LossSpec.total_blocks]
  refine Finset.sum_congr rfl fun i _ => ?_
  rw [Finset.sum_range]
  exact Finset.sum_congr rfl fun j _ => tileN_eq m c i j

/-- The f32 word of 16773120 = 4096 * 4095, the number of ordered pairs, at the exact reals (never evaluated). -/
abbrev C32 : EReal := Ideal.ofBits .f32 0x4B7FF000#32

omit t i j ht in
/-- THE RESULT of the idealized kernel. -/
theorem kernel_result :
    (W3 m c (Proc.devRef .tc main_v7) : S_.Idx → EReal)
      = fun _ => Ideal.div (zero32 + LossSpec.total (argE m c) (sqv (argE m c)) (argA m c)) C32 := by
  have e : (W3 m c (Proc.devRef .tc main_v7) : S_.Idx → EReal)
      = Host.divf (Host.reduceAdd (F := Ideal) (OutArr m c) (constant S_ .f32 0x00000000#32) Facts₀.reducesTo_S4x8x128_S_d0_1_2 Facts₀.h_S_)
          (constant S_ .f32 0x4B7FF000#32) := by
    show StableHlo.after hostOps1 (W2 m c) (Proc.devRef .tc main_v7) = _
    after_results
    rw [W2_out, final5]
  rw [e]
  funext idx
  show FloatOps.hostDivf (Host.reduceAdd (F := Ideal) (OutArr m c) (constant S_ .f32 0x00000000#32) Facts₀.reducesTo_S4x8x128_S_d0_1_2 Facts₀.h_S_ idx) C32 = _
  have hs : Host.reduceAdd (F := Ideal) (OutArr m c) (constant S_ .f32 0x00000000#32) Facts₀.reducesTo_S4x8x128_S_d0_1_2 Facts₀.h_S_ idx
      = zero32 + ∑ x : S4x8x128.Idx, OutArr m c x := by
    simp only [Host.reduceAdd, Ideal.hostReduceAdd_def]
    exact Ideal.hostReduceAdd_total Facts₀.reducesTo_S4x8x128_S_d0_1_2 (fun b => b.elim0) (OutArr m c) _ idx
  rw [hs, sum_OutArr, kernel_total]
  rfl

end Cert.KernelIdeal.Val

end
-- ==== Proof.RefValue.lean ====
/-
  The idealized reference's result as the same function of the two argument arrays.
  Read one operation at a time at the pair (r, c): the squared norms broadcast along rows and columns, the Gram
  matrix entry <e r, e c>, the difference with the target distance squared, and the factor 1 - [r = c] from the
  identity matrix (an integer comparison of the row counter with the column counter, converted to a float).
  That factor masks the diagonal, so the summand is the specification's masked pair loss; the reference sums
  it over all pairs from the word 0.0 and divides by 16773120.
-/
import proofs.«151003_j23407571763518_2_alg».proof.Proof.Gen.ReferenceIdeal.Read
import proofs.«151003_j23407571763518_2_alg».proof.Proof.LossSpec

set_option maxRecDepth 16384

noncomputable section
open scoped BigOperators

namespace Cert.ReferenceIdeal.RefValue

open Idealize.ShloMosaic Idealize.ShloMosaic.ValueIdx
open Cert.ReferenceIdeal Cert.ReferenceIdeal.Gen Cert.ReferenceIdeal.Read Cert.LossSpec

variable (x0 : S4096x768.Idx → EReal) (x1 : S4096x4096.Idx → EReal)

/-- The reference's summand at the pair (r, c) is the masked pair loss. -/
theorem v21_at (r c : Fin 4096) :
    val_main_v21 (F := Ideal) x0 x1 (ix2 r c) = masked x0 (val_main_v1 (F := Ideal) x0) x1 r c := by
  have e5 : idx_main_v3 (idx_main_v5 (ix2 r c)) = ix1 r := funext fun a => Fin.ext (by match a with | ⟨0, _⟩ => rfl)
  have e6 : idx_main_v4 (idx_main_v6 (ix2 r c)) = ix1 c := funext fun a => Fin.ext (by match a with | ⟨0, _⟩ => rfl)
  have el : ∀ k, lidx_main_v2 (ix2 r c) k = ix2 r k := fun k => funext fun a => Fin.ext (by match a with | ⟨0, _⟩ => rfl | ⟨1, _⟩ => rfl)
  have er : ∀ k, ridx_main_v2 (ix2 r c) k = ix2 c k := fun k => funext fun a => Fin.ext (by match a with | ⟨0, _⟩ => rfl | ⟨1, _⟩ => rfl)
  rw [val_main_v21_apply, val_main_v20_apply, val_main_v19_apply, val_main_v10_apply, val_main_v7_apply, val_main_v5_apply,
    val_main_v3_apply, val_main_v6_apply, val_main_v4_apply, val_main_v9_apply, val_main_v8_apply, val_main_cst_0_apply,
    val_main_v2_apply, val_main_v18_apply, val_main_v17_apply, val_main_cst_1_apply, val_main_v16_apply, val_main_v15_apply,
    val_main_v14_apply, val_main_v11_apply, val_main_v13_apply, val_main_c_apply, val_main_v12_apply, e5, e6]
  simp only [el, er]
  unfold masked
  exact mul_offdiag (pairLoss x0 (val_main_v1 (F := Ideal) x0) x1 r c) _ (r.val = c.val) (eye_word r.val c.val r.isLt c.isLt)

/-- The squared norms the reference computes. -/
abbrev sqR : S4096.Idx → EReal := val_main_v1 (F := Ideal) x0

/-- The f32 word of 16773120, at the exact reals. -/
abbrev C32 : EReal := Ideal.ofBits .f32 0x4B7FF000#32

/-- THE RESULT of the idealized reference. -/
theorem ref_result : val_main_v23 (F := Ideal) x0 x1 = fun _ => Ideal.div (zero32 + total x0 (sqR x0) x1) C32 := by
  funext idx
  rw [val_main_v23_apply, val_main_v22_apply, sum_idx2]
  have hs : ∑ r : Fin 4096, ∑ c : Fin 4096, val_main_v21 (F := Ideal) x0 x1 (ix2 r c) = total x0 (sqR x0) x1 :=
    Finset.sum_congr rfl fun r _ => Finset.sum_congr rfl fun c _ => v21_at x0 x1 r c
  rw [hs]
  rfl

end Cert.ReferenceIdeal.RefValue

end
-- ==== Proof.lean ====
/-
  The certificate of the pairwise distance loss: a Pallas kernel on a 4 x 8 grid of 1024 x 512 tiles against its jnp
  reference.

  Both programs compute, of embeddings e (4096 x 768) and target distances a (4096 x 4096),
      ( 0 + sum over ordered pairs r != c of ((|e r|^2 + |e c|^2) - 2 <e r, e c> - a(r,c))^2 ) / 16773120,
  the squared norms being the host's row sums of e * e in both. The kernel forms the sum tile by tile: per tile one
  matrix product of a band of rows with a strip of rows (their bf16 copies: the same reals), the diagonal entries
  replaced by 0, two lane sums, and the tile's sum added at one corner of an accumulator that is zeroed at a band's
  first strip and copied out at its last; the host then adds up the [4, 8, 128] output and divides. The reference
  multiplies each pair's loss by 1 - [r = c], sums over both axes at once and divides by the same word.

  The frames (each program runs to the end, faults nowhere, leaves its arguments as launched): the kernel's, at the
  word level and at the exact reals, is its run through the host lines before the region, the region itself — whose
  bf16 embeddings are read through TWO windows, so that array's ownership is split in halves at the region's entry and
  joined at its exit — and the host lines after it; the reference's is its straight-line run.
  The value: over the extended reals the two results are one function of the arguments. Regrouping the sum into tiles
  and bands uses only that + is associative and commutative; x * 0 = 0 and x * 1 = x hold for every extended real;
  so no finiteness of the inputs is needed and the precondition is never opened. The ideal pass rewrote nothing, so
  the kernel's idealization is its own text read at the exact reals.
-/
import proofs.«151003_j23407571763518_2_alg».proof.Defs
import proofs.«151003_j23407571763518_2_alg».proof.Proof.Gen.Kernel
import proofs.«151003_j23407571763518_2_alg».proof.Proof.Gen.KernelIdeal
import proofs.«151003_j23407571763518_2_alg».proof.Proof.Gen.ReferenceIdeal
import proofs.«151003_j23407571763518_2_alg».proof.Proof.Gen.ReferenceIdeal.Run
import proofs.«151003_j23407571763518_2_alg».proof.Proof.Gen.ReferenceIdeal.Read
import proofs.«151003_j23407571763518_2_alg».proof.Proof.Gen.Pre_finite_inputs
import proofs.«151003_j23407571763518_2_alg».proof.Proof.KernelFrame
import proofs.«151003_j23407571763518_2_alg».proof.Proof.KernelIdealFrame
import proofs.«151003_j23407571763518_2_alg».proof.Proof.KernelIdealValue
import proofs.«151003_j23407571763518_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frm.frame (F := Bits) m ρ

theorem frame_ki : Cert.frame_KernelIdeal := fun m ρ _ => Cert.KernelIdeal.Frm.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The squared norms are the same host term in both programs. -/
theorem sq_same (e : Cert.KernelIdeal.S4096x768.Idx → EReal) :
    Cert.KernelIdeal.Val.sqv e = Cert.ReferenceIdeal.RefValue.sqR e := rfl

/-- From memories that agree on the arguments both idealized programs end at (0 + total) / 16773120 of them. -/
theorem algebraic : Cert.algebraic_KernelIdeal_ReferenceIdeal := by
  intro m ρ m' ρ' _ hagree
  refine ⟨fun c => Cert.KernelIdeal.Frm.W3 m c (Proc.devRef .tc Cert.KernelIdeal.main_v7), ?_, ?_⟩
  · exact (θ_run Cert.KernelIdeal.defs _ _).mono (fun r h c =>
      ⟨h c _ (Cert.KernelIdeal.Frm.mem_uc Cert.KernelIdeal.main_v7 (by decide)),
       (h c _ (Cert.KernelIdeal.Frm.mem_uc Cert.KernelIdeal.main_arg0 (by decide))).trans (Cert.KernelIdeal.Frm.W3_main_arg0 m c),
       (h c _ (Cert.KernelIdeal.Frm.mem_uc Cert.KernelIdeal.main_arg1 (by decide))).trans (Cert.KernelIdeal.Frm.W3_main_arg1 m c)⟩)
      (Cert.KernelIdeal.Frm.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.ref_result, (hagree c).1, (hagree c).2]
    exact (Cert.KernelIdeal.Val.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
